-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x3072 : Shape := ⟨2, ![1024, 3072]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024x1024 .f32) (main_arg15 : FVec F S1024 .f32) (main_arg16 : FVec F S1024x1024 .f32) (main_arg17 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_v48 : IVec S_ 1) (main_v49 : FVec F S1024x3072 .f32) (main_v50 : FVec F S1024x3072 .f32) : IVec S_ 1 :=
  let main_v51 : IVec S1024x3072 1 := cmpf .olt main_v49 main_v50
  let main_c_19 : IVec S_ 1 := constantI S_ 1 1#1
  let main_v52 : IVec S_ 1 := (fun x v => Host.reduce IntOp.andi x v reducesTo_S1024x3072_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x3072 .f32) (main_arg9 : FVec F S1024 .f32) (main_arg10 : FVec F S1024x3072 .f32) (main_arg11 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x3072 .f32 := Host.absf main_arg8
  let main_cst_14 : FVec F S_ .f32 := constant S_ .f32 0x7F800000#32
  let main_v40 : FVec F S1024x3072 .f32 := broadcastInDim S1024x3072 ![] bcast_S_S1024x3072 main_cst_14
  let main_v41 : IVec S1024x3072 1 := cmpf .olt main_v39 main_v40
  let main_c_15 : IVec S_ 1 := constantI S_ 1 1#1
  let main_v42 : IVec S_ 1 := (fun x v => Host.reduce IntOp.andi x v reducesTo_S1024x3072_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x3072 .f32 := Host.absf main_arg10
  let main_cst_18 : FVec F S_ .f32 := constant S_ .f32 0x7F800000#32
  let main_v50 : FVec F S1024x3072 .f32 := broadcastInDim S1024x3072 ![] bcast_S_S1024x3072 main_cst_18
  fn_part3 (F := F) main_arg11 main_arg12 main_arg13 main_arg14 main_arg15 main_arg16 main_arg17 main_v48 main_v49 main_v50

def fn_part1 {F : FTy → Type} [FloatOps F] (main_arg4 : FVec F S1024x3072 .f32) (main_arg5 : FVec F S1024 .f32) (main_arg6 : FVec F S1024x3072 .f32) (main_arg7 : FVec F S1024 .f32) (main_arg8 : FVec F S1024x3072 .f32) (main_arg9 : FVec F S1024 .f32) (main_arg10 : FVec F S1024x3072 .f32) (main_arg11 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x3072 .f32 := Host.absf main_arg6
  let main_cst_10 : FVec F S_ .f32 := constant S_ .f32 0x7F800000#32
  let main_v30 : FVec F S1024x3072 .f32 := broadcastInDim S1024x3072 ![] bcast_S_S1024x3072 main_cst_10
  let main_v31 : IVec S1024x3072 1 := cmpf .olt main_v29 main_v30
  let main_c_11 : IVec S_ 1 := constantI S_ 1 1#1
  let main_v32 : IVec S_ 1 := (fun x v => Host.reduce IntOp.andi x v reducesTo_S1024x3072_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1024x3072 .f32) (main_arg5 : FVec F S1024 .f32) (main_arg6 : FVec F S1024x3072 .f32) (main_arg7 : FVec F S1024 .f32) (main_arg8 : FVec F S1024x3072 .f32) (main_arg9 : FVec F S1024 .f32) (main_arg10 : FVec F S1024x3072 .f32) (main_arg11 : FVec F S1024 .f32) (main_arg12 : FVec F S1024x1024 .f32) (main_arg13 : FVec F S1024 .f32) (main_arg14 : FVec F S1024x1024 .f32) (main_arg15 : FVec F S1024 .f32) (main_arg16 : FVec F S1024x1024 .f32) (main_arg17 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S4096x1024 : Shape := ⟨2, ![4096, 1024]⟩
abbrev S1024x3072 : Shape := ⟨2, ![1024, 3072]⟩
abbrev S1024 : Shape := ⟨1, ![1024]⟩
abbrev S1024x1024 : Shape := ⟨2, ![1024, 1024]⟩
abbrev S3072x1024 : Shape := ⟨2, ![3072, 1024]⟩
abbrev S1024x4096 : Shape := ⟨2, ![1024, 4096]⟩
abbrev S4096 : Shape := ⟨1, ![4096]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩

abbrev nBuf : Space → Nat
  | .hbm => 54
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x3072, .f32⟩
  | .hbm, ⟨5, _⟩ => ⟨S1024, .f32⟩
  | .hbm, ⟨6, _⟩ => ⟨S1024x3072, .f32⟩
  | .hbm, ⟨7, _⟩ => ⟨S1024, .f32⟩
  | .hbm, ⟨8, _⟩ => ⟨S1024x3072, .f32⟩
  | .hbm, ⟨9, _⟩ => ⟨S1024, .f32⟩
  | .hbm, ⟨10, _⟩ => ⟨S1024x3072, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S3072x1024, .f32⟩
  | .hbm, ⟨19, _⟩ => ⟨S3072x1024, .f32⟩
  | .hbm, ⟨20, _⟩ => ⟨S3072x1024, .f32⟩
  | .hbm, ⟨21, _⟩ => ⟨S3072x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x4096, .f32⟩
  | .hbm, ⟨27, _⟩ => ⟨S1024x4096, .bf16⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x4096, .f32⟩
  | .hbm, ⟨33, _⟩ => ⟨S1024x4096, .bf16⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x4096, .f32⟩
  | .hbm, ⟨39, _⟩ => ⟨S1024x4096, .bf16⟩
  | .hbm, ⟨40, _⟩ => ⟨S4096, .f32⟩
  | .hbm, ⟨41, _⟩ => ⟨S1x4096, .f32⟩
  | .hbm, ⟨42, _⟩ => ⟨S1024x1024, .f32⟩
  | .hbm, ⟨43, _⟩ => ⟨S1024x1024, .bf16⟩
  | .hbm, ⟨44, _⟩ => ⟨S1024x1024, .f32⟩
  | .hbm, ⟨45, _⟩ => ⟨S1024x1024, .bf16⟩
  | .hbm, ⟨46, _⟩ => ⟨S1024x1024, .f32⟩
  | .hbm, ⟨47, _⟩ => ⟨S1024x1024, .bf16⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1x4096, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S1024x3072_S3072x1024_1_0 : S1024x3072.Transposes [1, 0] S3072x1024
  slices_S3072x1024_S1024x1024_0_0 : S3072x1024.Slices ![0, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S3072x1024_S1024x1024_1024_0 : S3072x1024.Slices ![1024, 0] S1024x1024
  slices_S3072x1024_S1024x1024_2048_0 : S3072x1024.Slices ![2048, 0] S1024x1024
  concatenates_S1024_S1024_S1024_S1024_S4096_d0 : Shape.Concatenates [S1024, S1024, S1024, S1024] S4096 0
  shapeCasts_S4096_S1x4096 : S4096.ShapeCasts S1x4096
  transposes_S1024x1024_S1024x1024_1_0 : S1024x1024.Transposes [1, 0] S1024x1024
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S4096x1024.size a
  hwx0_3 : ∀ i : grid0.Coords, EltTy.bits .f32 = 32 ∨ (Rect.block (s := S4096x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S4096x1024.size a
  hwx0_14 : ∀ i : grid0.Coords, EltTy.bits .f32 = 32 ∨ (Rect.block (s := S4096x1024) S128x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S4096x1024.size a
  hwx0_15 : ∀ i : grid0.Coords, EltTy.bits .f32 = 32 ∨ (Rect.block (s := S4096x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S4096x1024.size a
  hwx0_16 : ∀ i : grid0.Coords, EltTy.bits .f32 = 32 ∨ (Rect.block (s := S4096x1024) S128x1024.size (cc0_transform_16 i) (hinb0_16 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33_0) S128x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v33_1) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v33_2) S128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x3072 : Shape := ⟨2, ![1024, 3072]⟩
abbrev S1024 : Shape := ⟨1, ![1024]⟩
abbrev S1024x1024 : Shape := ⟨2, ![1024, 1024]⟩
abbrev S4096x3072 : Shape := ⟨2, ![4096, 3072]⟩
abbrev S3072x1024 : Shape := ⟨2, ![3072, 1024]⟩
abbrev S1x1024 : Shape := ⟨2, ![1, 1024]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x3072, .f32⟩
  | .hbm, ⟨5, _⟩ => ⟨S1024, .f32⟩
  | .hbm, ⟨6, _⟩ => ⟨S1024x3072, .f32⟩
  | .hbm, ⟨7, _⟩ => ⟨S1024, .f32⟩
  | .hbm, ⟨8, _⟩ => ⟨S1024x3072, .f32⟩
  | .hbm, ⟨9, _⟩ => ⟨S1024, .f32⟩
  | .hbm, ⟨10, _⟩ => ⟨S1024x3072, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S4096x3072, .f32⟩
  | .hbm, ⟨19, _⟩ => ⟨S3072x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S3072x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S3072x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S3072x1024, .f32⟩
  | .hbm, ⟨59, _⟩ => ⟨S4096x1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S1024x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1024x1024, .f32⟩
  | .hbm, ⟨76, _⟩ => ⟨S4096x1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S1024x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  concatenates_S4096x1024_S4096x1024_S4096x1024_S4096x3072_d1 : Shape.Concatenates [S4096x1024, S4096x1024, S4096x1024] S4096x3072 1
  transposes_S1024x3072_S3072x1024_1_0 : S1024x3072.Transposes [1, 0] S3072x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S1024x1024_S1024x1024_1_0 : S1024x1024.Transposes [1, 0] S1024x1024
  dot_S4096x3072_S3072x1024_S4096x1024_1_0_0_1_n_n_wf : DotDims.WF S4096x3072 S3072x1024 S4096x1024 [1] [0] [0] [1] [] []
  dot_S4096x1024_S1024x1024_S4096x1024_1_0_0_1_n_n_wf : DotDims.WF S4096x1024 S1024x1024 S4096x1024 [1] [0] [0] [1] [] []

variable [Facts₀]

def dot_S4096x3072_S3072x1024_S4096x1024_1_0_0_1_n_n : DotDims S4096x3072 S3072x1024 S4096x1024 where
  lhsContracting := [1]
  rhsContracting := [0]
  lhsNonContracting := [0]
  rhsNonContracting := [1]
  lhsBatch := []
  rhsBatch := []
  wf := dot_S4096x3072_S3072x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.EntryWord.lean ====
/-
  The region's surroundings in `Kernel`: what each TensorCore buffer holds when the one region is entered, and what
  that says about the eighteen argument arrays when the program ends.

  Before the region the host runs thirty-three layout operations (transposes, row slices, joins along an axis, format
  changes, reshapes), each writing a buffer of its own: none writes an argument array, so the region finds every
  argument as launched (`V_arg`). A window's block at a grid point is a rectangle of the array the window stages, read
  off those contents (`blk`); an input window's staging buffer holds that block at every point, whether the pipeline
  fetched it there or the block index has not moved since the last fetch (`before_of`). Arguments 0 to 3 are staged by
  input windows, whose arrays are never written back; arguments 4 to 17 are read by host operations only, and no window
  writes them: either way they end as launched (`frame_of`).
-/
import proofs.«164272_j80831284510999_2_alg».proof.Proof.Gen.Kernel.Launch
import proofs.«164272_j80831284510999_2_alg».proof.Proof.Gen.Kernel.Skeleton
import proofs.«164272_j80831284510999_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- Core `c`'s TensorCore buffers when the region is entered: the launch contents after the host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: the region finds it as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: the region finds it as launched. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: the region finds it as launched. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: the region finds it as launched. -/
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: the region finds it as launched. -/
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: the region finds it as launched. -/
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: the region finds it as launched. -/
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: the region finds it as launched. -/
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: the region finds it as launched. -/
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 17: the region finds it as launched. -/
theorem V_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`: its rectangle of the array it stages, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = blk m c 5 t) (t : Fin cfg0.N) (d) : dat.before 5 t d = blk m c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = blk m c 6 t) (t : Fin cfg0.N) (d) : dat.before 6 t d = blk m c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = blk m c 7 t) (t : Fin cfg0.N) (d) : dat.before 7 t d = blk m c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
/-- Input window 8's current staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = blk m c 8 t) (t : Fin cfg0.N) (d) : dat.before 8 t d = blk m c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
/-- Input window 9's current staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = blk m c 9 t) (t : Fin cfg0.N) (d) : dat.before 9 t d = blk m c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
/-- Input window 10's current staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = blk m c 10 t) (t : Fin cfg0.N) (d) : dat.before 10 t d = blk m c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)
/-- Input window 11's current staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = blk m c 11 t) (t : Fin cfg0.N) (d) : dat.before 11 t d = blk m c 11 t :=
  (dat.before_in_eq_fetched 11 rfl (fun _ => rfl) (fun _ _ _ => rfl) (fun t => by rw [hafter]; unfold Dat.blockOf blk; rw [hA]; try rfl) t d).trans
    (by unfold Dat.fetched Dat.blockOf blk; rw [hA]; try rfl)
/-- Input window 12's current staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = blk m c 12 t) (t : Fin cfg0.N) (d) : dat.before 12 t d = blk m c 12 t :=
  (dat.before_in_eq_fetched 12 rfl (fun _ => rfl) (fun _ _ _ => rfl) (fun t => by rw [hafter]; unfold Dat.blockOf blk; rw [hA]; try rfl) t d).trans
    (by unfold Dat.fetched Dat.blockOf blk; rw [hA]; try rfl)
/-- Input window 13's current staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = blk m c 13 t) (t : Fin cfg0.N) (d) : dat.before 13 t d = blk m c 13 t :=
  (dat.before_in_eq_fetched 13 rfl (fun _ => rfl) (fun _ _ _ => rfl) (fun t => by rw [hafter]; unfold Dat.blockOf blk; rw [hA]; try rfl) t d).trans
    (by unfold Dat.fetched Dat.blockOf blk; rw [hA]; try rfl)

/-! ## The arguments at the end -/

/-- From any proof data whose arrays are the entry contents, a run of the program to the pipeline library's final state
    (every staged array at what the proof data computes, every other buffer as at the region's entry) is a run after
    which the eighteen arguments hold their launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).1 3).trans (((dats 0 c).arrAt_in 3 rfl _).trans ((hA c 3).trans (V_arg3 m c))),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c),
      ((h c).2 main_arg14 (Pipeline.mem_restRefs_of main_arg14 (by decide) (by decide))).trans (V_arg14 m c),
      ((h c).2 main_arg15 (Pipeline.mem_restRefs_of main_arg15 (by decide) (by decide))).trans (V_arg15 m c),
      ((h c).2 main_arg16 (Pipeline.mem_restRefs_of main_arg16 (by decide) (by decide))).trans (V_arg16 m c),
      ((h c).2 main_arg17 (Pipeline.mem_restRefs_of main_arg17 (by decide) (by decide))).trans (V_arg17 m c)⟩) h

end Cert.Kernel.Step

end
-- ==== Proof.BodyWord.lean ====
/-
  One call of the kernel body in `Kernel`, as a statement about its seventeen staging buffers.

  The body reads each of its fourteen input buffers whole, computes, and overwrites each of its three output buffers
  whole: the prediction, the new hidden state and the new cell state of the block's 128 batch rows. So after the call
  every input buffer holds what it held, and every output buffer holds the body's arithmetic applied to the input
  buffers' contents (`outPred`, `outHidden`, `outCell`: one store each, covering the buffer). What an output buffer
  held before the call is read once and discarded, so it may be anything.
-/
import proofs.«164272_j80831284510999_2_alg».proof.Proof.Gen.Kernel.Launch
import proofs.«164272_j80831284510999_2_alg».proof.Proof.Gen.Kernel.Skeleton
import proofs.«164272_j80831284510999_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole buffer -/

abbrev rRows : Rect S128x1024 := Rect.unit (s := S128x1024) ![0, 0] S128x1024.size inb_S128x1024_S128x1024_0_0
abbrev rGates : Rect S1024x4096 := Rect.unit (s := S1024x4096) ![0, 0] S1024x4096.size inb_S1024x4096_S1024x4096_0_0
abbrev rGateBias : Rect S1x4096 := Rect.unit (s := S1x4096) ![0, 0] S1x4096.size inb_S1x4096_S1x4096_0_0
abbrev rProj : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-! ## What the body leaves in each output buffer -/

/-- The new cell state of the block's rows, from the contents of input buffers 0 to 7. -/
def outCell (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) : Vec F S128x1024 .f32 :=
  View.canon [⟨rRows, k0_pay4 (View.ld x0 rRows) (View.ld x1 rRows) (View.ld x3 rRows) (View.ld x4 rGates) (View.ld x5 rGates) (View.ld x6 rGates) (View.ld x7 rGateBias) (View.ld x2 rRows)⟩]

/-- The new hidden state of the block's rows, from the contents of input buffers 0 to 7. -/
def outHidden (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) : Vec F S128x1024 .f32 :=
  View.canon [⟨rRows, k0_pay5 (View.ld x0 rRows) (View.ld x1 rRows) (View.ld x3 rRows) (View.ld x4 rGates) (View.ld x5 rGates) (View.ld x6 rGates) (View.ld x7 rGateBias) (View.ld x2 rRows)⟩]

/-- The prediction of the block's rows, from the contents of all fourteen input buffers. -/
def outPred (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) (x8 : Vec F S1024x1024 .bf16) (x9 : Vec F S1024x1024 .bf16) (x10 : Vec F S1024x1024 .bf16) (x11 : Vec F S1x1024 .f32) (x12 : Vec F S1x1024 .f32) (x13 : Vec F S1x1024 .f32) : Vec F S128x1024 .f32 :=
  View.canon [⟨rRows, k0_pay1 (k0_pay2 (View.ld x3 rRows)) (k0_pay6 (View.ld x0 rRows) (View.ld x1 rRows) (View.ld x3 rRows) (View.ld x4 rGates) (View.ld x5 rGates) (View.ld x6 rGates) (View.ld x7 rGateBias) (View.ld x2 rRows)) (View.ld x0 rRows) (View.ld x8 rProj) (View.ld x11 rBias) (View.ld x9 rProj) (View.ld x12 rBias) (View.ld x10 rProj) (View.ld x13 rBias)⟩]

/-- One store of the whole rectangle covers the buffer. -/
theorem coverRows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The body on whole staging buffers, the inputs' at contents `x0 … x13` and the outputs' at anything, runs to a
    continuation that holds the inputs' as they were and the three outputs' at `outPred`, `outHidden`, `outCell` of
    the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole)
    (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) (x8 : Vec F S1024x1024 .bf16) (x9 : Vec F S1024x1024 .bf16) (x10 : Vec F S1024x1024 .bf16) (x11 : Vec F S1x1024 .f32) (x12 : Vec F S1x1024 .f32) (x13 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outPred x0 x1 x2 x3 x4 x5 x6 x7 x8 x9 x10 x11 x12 x13) ∗ owns (c : Thread nD τ) arg16 fullShare (outHidden x0 x1 x2 x3 x4 x5 x6 x7) ∗ owns (c : Thread nD τ) arg17 fullShare (outCell x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (coverRows _)
  isplitl [H15]
  · iexists _; isplitr
    swap; · iexact H15
    ipureintro
    try dsimp only
    exact View.read_writes_eq_canon _ _ _ (coverRows _)
  iexists _; isplitr
  swap; · iexact H16
  ipureintro
  try dsimp only
  exact View.read_writes_eq_canon _ _ _ (coverRows _)

end Cert.Kernel.Step

end
-- ==== Proof.RunWord.lean ====
/-
  The run of `Kernel` and its frame.

  The proof data of the one pipeline: every staged array as the region finds it; after the body at a grid point each
  input buffer at its block and each output buffer at the body's arithmetic of the fourteen input blocks. With the
  body's triple at every point this is the pipeline library's obligation, and the library then runs the whole program:
  every execution ends, nothing faults, every staged array ends at what the proof data computes and every other buffer
  as the region found it. Read at the eighteen arguments, that is the frame.
-/
import proofs.«164272_j80831284510999_2_alg».proof.Proof.EntryWord
import proofs.«164272_j80831284510999_2_alg».proof.Proof.BodyWord

set_option maxRecDepth 16384

noncomputable section

namespace Cert.Kernel.Step

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => outPred (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t)
    | ⟨15, _⟩ => outHidden (blk m c 0 t) (blk m c 1 t) (blk m c 2 t) (blk m c 3 t) (blk m c 4 t) (blk m c 5 t) (blk m c 6 t) (blk m c 7 t)
    | ⟨16, _⟩ => outCell (blk m c 0 t) (blk m c 1 t) (blk m c 2 t) (blk m c 3 t) (blk m c 4 t) (blk m c 5 t) (blk m c 6 t) (blk m c 7 t)
    | ⟨_ + 17, h⟩ => absurd h (Nat.not_lt.2 (Nat.le_add_left _ _))
  Φ _ := Pipeline.ΦA spec0 c
  q _ := fullShare
  owed _ := 0

/-- Its arrays are the entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = blk m c 7 t := by dsimp only [dats]
theorem after8 (c : Dev nD) (t : Fin cfg0.N) : (dats m 0 c).after 8 t = blk m c 8 t := by dsimp only [dats]
theorem after9 (c : Dev nD) (t : Fin cfg0.N) : (dats m 0 c).after 9 t = blk m c 9 t := by dsimp only [dats]
theorem after10 (c : Dev nD) (t : Fin cfg0.N) : (dats m 0 c).after 10 t = blk m c 10 t := by dsimp only [dats]
theorem after11 (c : Dev nD) (t : Fin cfg0.N) : (dats m 0 c).after 11 t = blk m c 11 t := by dsimp only [dats]
theorem after12 (c : Dev nD) (t : Fin cfg0.N) : (dats m 0 c).after 12 t = blk m c 12 t := by dsimp only [dats]
theorem after13 (c : Dev nD) (t : Fin cfg0.N) : (dats m 0 c).after 13 t = blk m c 13 t := by dsimp only [dats]
theorem after14 (c : Dev nD) (t : Fin cfg0.N) : (dats m 0 c).after 14 t = outPred (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) := by dsimp only [dats]
theorem after15 (c : Dev nD) (t : Fin cfg0.N) : (dats m 0 c).after 15 t = outHidden (blk m c 0 t) (blk m c 1 t) (blk m c 2 t) (blk m c 3 t) (blk m c 4 t) (blk m c 5 t) (blk m c 6 t) (blk m c 7 t) := by dsimp only [dats]
theorem after16 (c : Dev nD) (t : Fin cfg0.N) : (dats m 0 c).after 16 t = outCell (blk m c 0 t) (blk m c 1 t) (blk m c 2 t) (blk m c 3 t) (blk m c 4 t) (blk m c 5 t) (blk m c 6 t) (blk m c 7 t) := by dsimp only [dats]

/-! Each input's current staging buffer holds its block at every point. -/
theorem before0 (c : Dev nD) (t : Fin cfg0.N) (d) : (dats m 0 c).before 0 t d = blk m c 0 t :=
  before0_of m (dats m 0 c) (A_eq m c 0) (after0 m c) t d
theorem before1 (c : Dev nD) (t : Fin cfg0.N) (d) : (dats m 0 c).before 1 t d = blk m c 1 t :=
  before1_of m (dats m 0 c) (A_eq m c 1) (after1 m c) t d
theorem before2 (c : Dev nD) (t : Fin cfg0.N) (d) : (dats m 0 c).before 2 t d = blk m c 2 t :=
  before2_of m (dats m 0 c) (A_eq m c 2) (after2 m c) t d
theorem before3 (c : Dev nD) (t : Fin cfg0.N) (d) : (dats m 0 c).before 3 t d = blk m c 3 t :=
  before3_of m (dats m 0 c) (A_eq m c 3) (after3 m c) t d
theorem before4 (c : Dev nD) (t : Fin cfg0.N) (d) : (dats m 0 c).before 4 t d = blk m c 4 t :=
  before4_of m (dats m 0 c) (A_eq m c 4) (after4 m c) t d
theorem before5 (c : Dev nD) (t : Fin cfg0.N) (d) : (dats m 0 c).before 5 t d = blk m c 5 t :=
  before5_of m (dats m 0 c) (A_eq m c 5) (after5 m c) t d
theorem before6 (c : Dev nD) (t : Fin cfg0.N) (d) : (dats m 0 c).before 6 t d = blk m c 6 t :=
  before6_of m (dats m 0 c) (A_eq m c 6) (after6 m c) t d
theorem before7 (c : Dev nD) (t : Fin cfg0.N) (d) : (dats m 0 c).before 7 t d = blk m c 7 t :=
  before7_of m (dats m 0 c) (A_eq m c 7) (after7 m c) t d
theorem before8 (c : Dev nD) (t : Fin cfg0.N) (d) : (dats m 0 c).before 8 t d = blk m c 8 t :=
  before8_of m (dats m 0 c) (A_eq m c 8) (after8 m c) t d
theorem before9 (c : Dev nD) (t : Fin cfg0.N) (d) : (dats m 0 c).before 9 t d = blk m c 9 t :=
  before9_of m (dats m 0 c) (A_eq m c 9) (after9 m c) t d
theorem before10 (c : Dev nD) (t : Fin cfg0.N) (d) : (dats m 0 c).before 10 t d = blk m c 10 t :=
  before10_of m (dats m 0 c) (A_eq m c 10) (after10 m c) t d
theorem before11 (c : Dev nD) (t : Fin cfg0.N) (d) : (dats m 0 c).before 11 t d = blk m c 11 t :=
  before11_of m (dats m 0 c) (A_eq m c 11) (after11 m c) t d
theorem before12 (c : Dev nD) (t : Fin cfg0.N) (d) : (dats m 0 c).before 12 t d = blk m c 12 t :=
  before12_of m (dats m 0 c) (A_eq m c 12) (after12 m c) t d
theorem before13 (c : Dev nD) (t : Fin cfg0.N) (d) : (dats m 0 c).before 13 t d = blk m c 13 t :=
  before13_of m (dats m 0 c) (A_eq m c 13) (after13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- From any memory with zero counters every weakly fair execution of the program on the TensorCores terminates, and in
    every final state each staged array holds what the proof data computes and every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its eighteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Step

end
-- ==== Proof.EntryIdeal.lean ====
/-
  The region's surroundings in `KernelIdeal`: what each TensorCore buffer holds when the one region is entered, and what
  that says about the eighteen argument arrays when the program ends.

  Before the region the host runs thirty-three layout operations (transposes, row slices, joins along an axis, format
  changes, reshapes), each writing a buffer of its own: none writes an argument array, so the region finds every
  argument as launched (`V_arg`). A window's block at a grid point is a rectangle of the array the window stages, read
  off those contents (`blk`); an input window's staging buffer holds that block at every point, whether the pipeline
  fetched it there or the block index has not moved since the last fetch (`before_of`). Arguments 0 to 3 are staged by
  input windows, whose arrays are never written back; arguments 4 to 17 are read by host operations only, and no window
  writes them: either way they end as launched (`frame_of`).
-/
import proofs.«164272_j80831284510999_2_alg».proof.Proof.Gen.KernelIdeal.Launch
import proofs.«164272_j80831284510999_2_alg».proof.Proof.Gen.KernelIdeal.Skeleton
import proofs.«164272_j80831284510999_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- Core `c`'s TensorCore buffers when the region is entered: the launch contents after the host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: the region finds it as launched. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: the region finds it as launched. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: the region finds it as launched. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: the region finds it as launched. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: the region finds it as launched. -/
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: the region finds it as launched. -/
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: the region finds it as launched. -/
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: the region finds it as launched. -/
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: the region finds it as launched. -/
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: the region finds it as launched. -/
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 17: the region finds it as launched. -/
theorem V_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`: its rectangle of the array it stages, read off the entry contents. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = blk m c 4 t) (t : Fin cfg0.N) (d) : dat.before 4 t d = blk m c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = blk m c 5 t) (t : Fin cfg0.N) (d) : dat.before 5 t d = blk m c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = blk m c 6 t) (t : Fin cfg0.N) (d) : dat.before 6 t d = blk m c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)
/-- Input window 7's current staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = blk m c 7 t) (t : Fin cfg0.N) (d) : dat.before 7 t d = blk m c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)
/-- Input window 8's current staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = blk m c 8 t) (t : Fin cfg0.N) (d) : dat.before 8 t d = blk m c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)
/-- Input window 9's current staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = blk m c 9 t) (t : Fin cfg0.N) (d) : dat.before 9 t d = blk m c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)
/-- Input window 10's current staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = blk m c 10 t) (t : Fin cfg0.N) (d) : dat.before 10 t d = blk m c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)
/-- Input window 11's current staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = blk m c 11 t) (t : Fin cfg0.N) (d) : dat.before 11 t d = blk m c 11 t :=
  (dat.before_in_eq_fetched 11 rfl (fun _ => rfl) (fun _ _ _ => rfl) (fun t => by rw [hafter]; unfold Dat.blockOf blk; rw [hA]; try rfl) t d).trans
    (by unfold Dat.fetched Dat.blockOf blk; rw [hA]; try rfl)
/-- Input window 12's current staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = blk m c 12 t) (t : Fin cfg0.N) (d) : dat.before 12 t d = blk m c 12 t :=
  (dat.before_in_eq_fetched 12 rfl (fun _ => rfl) (fun _ _ _ => rfl) (fun t => by rw [hafter]; unfold Dat.blockOf blk; rw [hA]; try rfl) t d).trans
    (by unfold Dat.fetched Dat.blockOf blk; rw [hA]; try rfl)
/-- Input window 13's current staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = blk m c 13 t) (t : Fin cfg0.N) (d) : dat.before 13 t d = blk m c 13 t :=
  (dat.before_in_eq_fetched 13 rfl (fun _ => rfl) (fun _ _ _ => rfl) (fun t => by rw [hafter]; unfold Dat.blockOf blk; rw [hA]; try rfl) t d).trans
    (by unfold Dat.fetched Dat.blockOf blk; rw [hA]; try rfl)

/-! ## The arguments at the end -/

/-- From any proof data whose arrays are the entry contents, a run of the program to the pipeline library's final state
    (every staged array at what the proof data computes, every other buffer as at the region's entry) is a run after
    which the eighteen arguments hold their launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).1 3).trans (((dats 0 c).arrAt_in 3 rfl _).trans ((hA c 3).trans (V_arg3 m c))),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c),
      ((h c).2 main_arg14 (Pipeline.mem_restRefs_of main_arg14 (by decide) (by decide))).trans (V_arg14 m c),
      ((h c).2 main_arg15 (Pipeline.mem_restRefs_of main_arg15 (by decide) (by decide))).trans (V_arg15 m c),
      ((h c).2 main_arg16 (Pipeline.mem_restRefs_of main_arg16 (by decide) (by decide))).trans (V_arg16 m c),
      ((h c).2 main_arg17 (Pipeline.mem_restRefs_of main_arg17 (by decide) (by decide))).trans (V_arg17 m c)⟩) h

end Cert.KernelIdeal.Step

end
-- ==== Proof.BodyIdeal.lean ====
/-
  One call of the kernel body in `KernelIdeal`, as a statement about its seventeen staging buffers.

  The body reads each of its fourteen input buffers whole, computes, and overwrites each of its three output buffers
  whole: the prediction, the new hidden state and the new cell state of the block's 128 batch rows. So after the call
  every input buffer holds what it held, and every output buffer holds the body's arithmetic applied to the input
  buffers' contents (`outPred`, `outHidden`, `outCell`: one store each, covering the buffer). What an output buffer
  held before the call is read once and discarded, so it may be anything.
-/
import proofs.«164272_j80831284510999_2_alg».proof.Proof.Gen.KernelIdeal.Launch
import proofs.«164272_j80831284510999_2_alg».proof.Proof.Gen.KernelIdeal.Skeleton
import proofs.«164272_j80831284510999_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole buffer -/

abbrev rRows : Rect S128x1024 := Rect.unit (s := S128x1024) ![0, 0] S128x1024.size inb_S128x1024_S128x1024_0_0
abbrev rGates : Rect S1024x4096 := Rect.unit (s := S1024x4096) ![0, 0] S1024x4096.size inb_S1024x4096_S1024x4096_0_0
abbrev rGateBias : Rect S1x4096 := Rect.unit (s := S1x4096) ![0, 0] S1x4096.size inb_S1x4096_S1x4096_0_0
abbrev rProj : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

/-! ## What the body leaves in each output buffer -/

/-- The new cell state of the block's rows, from the contents of input buffers 0 to 7. -/
def outCell (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) : Vec F S128x1024 .f32 :=
  View.canon [⟨rRows, k0_pay4 (View.ld x0 rRows) (View.ld x1 rRows) (View.ld x3 rRows) (View.ld x4 rGates) (View.ld x5 rGates) (View.ld x6 rGates) (View.ld x7 rGateBias) (View.ld x2 rRows)⟩]

/-- The new hidden state of the block's rows, from the contents of input buffers 0 to 7. -/
def outHidden (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) : Vec F S128x1024 .f32 :=
  View.canon [⟨rRows, k0_pay5 (View.ld x0 rRows) (View.ld x1 rRows) (View.ld x3 rRows) (View.ld x4 rGates) (View.ld x5 rGates) (View.ld x6 rGates) (View.ld x7 rGateBias) (View.ld x2 rRows)⟩]

/-- The prediction of the block's rows, from the contents of all fourteen input buffers. -/
def outPred (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) (x8 : Vec F S1024x1024 .bf16) (x9 : Vec F S1024x1024 .bf16) (x10 : Vec F S1024x1024 .bf16) (x11 : Vec F S1x1024 .f32) (x12 : Vec F S1x1024 .f32) (x13 : Vec F S1x1024 .f32) : Vec F S128x1024 .f32 :=
  View.canon [⟨rRows, k0_pay1 (k0_pay2 (View.ld x3 rRows)) (k0_pay6 (View.ld x0 rRows) (View.ld x1 rRows) (View.ld x3 rRows) (View.ld x4 rGates) (View.ld x5 rGates) (View.ld x6 rGates) (View.ld x7 rGateBias) (View.ld x2 rRows)) (View.ld x0 rRows) (View.ld x8 rProj) (View.ld x11 rBias) (View.ld x9 rProj) (View.ld x12 rBias) (View.ld x10 rProj) (View.ld x13 rBias)⟩]

/-- One store of the whole rectangle covers the buffer. -/
theorem coverRows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 4000000 in
/-- The body on whole staging buffers, the inputs' at contents `x0 … x13` and the outputs' at anything, runs to a
    continuation that holds the inputs' as they were and the three outputs' at `outPred`, `outHidden`, `outCell` of
    the inputs'. -/
theorem sound_kernel (c : Dev nD) (E : Set ℕ) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S1024x4096 .bf16) (harg7 : arg7.IsWhole) (arg8 : Memref sig .tc .vmem S1x4096 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S128x1024 .f32) (harg15 : arg15.IsWhole) (arg16 : Memref sig .tc .vmem S128x1024 .f32) (harg16 : arg16.IsWhole) (arg17 : Memref sig .tc .vmem S128x1024 .f32) (harg17 : arg17.IsWhole)
    (x0 : Vec F S128x1024 .f32) (x1 : Vec F S128x1024 .f32) (x2 : Vec F S128x1024 .f32) (x3 : Vec F S128x1024 .f32) (x4 : Vec F S1024x4096 .bf16) (x5 : Vec F S1024x4096 .bf16) (x6 : Vec F S1024x4096 .bf16) (x7 : Vec F S1x4096 .f32) (x8 : Vec F S1024x1024 .bf16) (x9 : Vec F S1024x1024 .bf16) (x10 : Vec F S1024x1024 .bf16) (x11 : Vec F S1x1024 .f32) (x12 : Vec F S1x1024 .f32) (x13 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outPred x0 x1 x2 x3 x4 x5 x6 x7 x8 x9 x10 x11 x12 x13) ∗ owns (c : Thread nD τ) arg16 fullShare (outHidden x0 x1 x2 x3 x4 x5 x6 x7) ∗ owns (c : Thread nD τ) arg17 fullShare (outCell x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    try dsimp only
    exact View.read_writes_eq_canon _ _ _ (coverRows _)
  isplitl [H15]
  · iexists _; isplitr
    swap; · iexact H15
    ipureintro
    try dsimp only
    exact View.read_writes_eq_canon _ _ _ (coverRows _)
  iexists _; isplitr
  swap; · iexact H16
  ipureintro
  try dsimp only
  exact View.read_writes_eq_canon _ _ _ (coverRows _)

end Cert.KernelIdeal.Step

end
-- ==== Proof.RunIdeal.lean ====
/-
  The run of `KernelIdeal` and its frame.

  The proof data of the one pipeline: every staged array as the region finds it; after the body at a grid point each
  input buffer at its block and each output buffer at the body's arithmetic of the fourteen input blocks. With the
  body's triple at every point this is the pipeline library's obligation, and the library then runs the whole program:
  every execution ends, nothing faults, every staged array ends at what the proof data computes and every other buffer
  as the region found it. Read at the eighteen arguments, that is the frame.
-/
import proofs.«164272_j80831284510999_2_alg».proof.Proof.EntryIdeal
import proofs.«164272_j80831284510999_2_alg».proof.Proof.BodyIdeal

set_option maxRecDepth 16384

noncomputable section

namespace Cert.KernelIdeal.Step

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => outPred (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t)
    | ⟨15, _⟩ => outHidden (blk m c 0 t) (blk m c 1 t) (blk m c 2 t) (blk m c 3 t) (blk m c 4 t) (blk m c 5 t) (blk m c 6 t) (blk m c 7 t)
    | ⟨16, _⟩ => outCell (blk m c 0 t) (blk m c 1 t) (blk m c 2 t) (blk m c 3 t) (blk m c 4 t) (blk m c 5 t) (blk m c 6 t) (blk m c 7 t)
    | ⟨_ + 17, h⟩ => absurd h (Nat.not_lt.2 (Nat.le_add_left _ _))
  Φ _ := Pipeline.ΦA spec0 c
  q _ := fullShare
  owed _ := 0

/-- Its arrays are the entry contents. -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = blk m c 7 t := by dsimp only [dats]
theorem after8 (c : Dev nD) (t : Fin cfg0.N) : (dats m 0 c).after 8 t = blk m c 8 t := by dsimp only [dats]
theorem after9 (c : Dev nD) (t : Fin cfg0.N) : (dats m 0 c).after 9 t = blk m c 9 t := by dsimp only [dats]
theorem after10 (c : Dev nD) (t : Fin cfg0.N) : (dats m 0 c).after 10 t = blk m c 10 t := by dsimp only [dats]
theorem after11 (c : Dev nD) (t : Fin cfg0.N) : (dats m 0 c).after 11 t = blk m c 11 t := by dsimp only [dats]
theorem after12 (c : Dev nD) (t : Fin cfg0.N) : (dats m 0 c).after 12 t = blk m c 12 t := by dsimp only [dats]
theorem after13 (c : Dev nD) (t : Fin cfg0.N) : (dats m 0 c).after 13 t = blk m c 13 t := by dsimp only [dats]
theorem after14 (c : Dev nD) (t : Fin cfg0.N) : (dats m 0 c).after 14 t = outPred (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) := by dsimp only [dats]
theorem after15 (c : Dev nD) (t : Fin cfg0.N) : (dats m 0 c).after 15 t = outHidden (blk m c 0 t) (blk m c 1 t) (blk m c 2 t) (blk m c 3 t) (blk m c 4 t) (blk m c 5 t) (blk m c 6 t) (blk m c 7 t) := by dsimp only [dats]
theorem after16 (c : Dev nD) (t : Fin cfg0.N) : (dats m 0 c).after 16 t = outCell (blk m c 0 t) (blk m c 1 t) (blk m c 2 t) (blk m c 3 t) (blk m c 4 t) (blk m c 5 t) (blk m c 6 t) (blk m c 7 t) := by dsimp only [dats]

/-! Each input's current staging buffer holds its block at every point. -/
theorem before0 (c : Dev nD) (t : Fin cfg0.N) (d) : (dats m 0 c).before 0 t d = blk m c 0 t :=
  before0_of m (dats m 0 c) (A_eq m c 0) (after0 m c) t d
theorem before1 (c : Dev nD) (t : Fin cfg0.N) (d) : (dats m 0 c).before 1 t d = blk m c 1 t :=
  before1_of m (dats m 0 c) (A_eq m c 1) (after1 m c) t d
theorem before2 (c : Dev nD) (t : Fin cfg0.N) (d) : (dats m 0 c).before 2 t d = blk m c 2 t :=
  before2_of m (dats m 0 c) (A_eq m c 2) (after2 m c) t d
theorem before3 (c : Dev nD) (t : Fin cfg0.N) (d) : (dats m 0 c).before 3 t d = blk m c 3 t :=
  before3_of m (dats m 0 c) (A_eq m c 3) (after3 m c) t d
theorem before4 (c : Dev nD) (t : Fin cfg0.N) (d) : (dats m 0 c).before 4 t d = blk m c 4 t :=
  before4_of m (dats m 0 c) (A_eq m c 4) (after4 m c) t d
theorem before5 (c : Dev nD) (t : Fin cfg0.N) (d) : (dats m 0 c).before 5 t d = blk m c 5 t :=
  before5_of m (dats m 0 c) (A_eq m c 5) (after5 m c) t d
theorem before6 (c : Dev nD) (t : Fin cfg0.N) (d) : (dats m 0 c).before 6 t d = blk m c 6 t :=
  before6_of m (dats m 0 c) (A_eq m c 6) (after6 m c) t d
theorem before7 (c : Dev nD) (t : Fin cfg0.N) (d) : (dats m 0 c).before 7 t d = blk m c 7 t :=
  before7_of m (dats m 0 c) (A_eq m c 7) (after7 m c) t d
theorem before8 (c : Dev nD) (t : Fin cfg0.N) (d) : (dats m 0 c).before 8 t d = blk m c 8 t :=
  before8_of m (dats m 0 c) (A_eq m c 8) (after8 m c) t d
theorem before9 (c : Dev nD) (t : Fin cfg0.N) (d) : (dats m 0 c).before 9 t d = blk m c 9 t :=
  before9_of m (dats m 0 c) (A_eq m c 9) (after9 m c) t d
theorem before10 (c : Dev nD) (t : Fin cfg0.N) (d) : (dats m 0 c).before 10 t d = blk m c 10 t :=
  before10_of m (dats m 0 c) (A_eq m c 10) (after10 m c) t d
theorem before11 (c : Dev nD) (t : Fin cfg0.N) (d) : (dats m 0 c).before 11 t d = blk m c 11 t :=
  before11_of m (dats m 0 c) (A_eq m c 11) (after11 m c) t d
theorem before12 (c : Dev nD) (t : Fin cfg0.N) (d) : (dats m 0 c).before 12 t d = blk m c 12 t :=
  before12_of m (dats m 0 c) (A_eq m c 12) (after12 m c) t d
theorem before13 (c : Dev nD) (t : Fin cfg0.N) (d) : (dats m 0 c).before 13 t d = blk m c 13 t :=
  before13_of m (dats m 0 c) (A_eq m c 13) (after13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
/-- The body at any point: the input buffers hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- From any memory with zero counters every weakly fair execution of the program on the TensorCores terminates, and in
    every final state each staged array holds what the proof data computes and every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without a fault and its eighteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Step

end
-- ==== Proof.Payload.lean ====
/-
  The arithmetic of the kernel body of one LSTM cell step, read at an index, over the extended reals.

  The body computes, from the blocks it loads, six values: the context block in the matrix unit's input format
  (the identity on extended reals), the four gates' pre-activations side by side (three matrix products into a zero
  accumulator, summed, plus a bias row broadcast over the rows), the new cell state, the new hidden state, the hidden
  state in the matrix unit's input format, and the residual output projection. Each is read here at a row `p` and a
  column: a matrix product into the zero accumulator is the sum over the contracted coordinate of the products of the
  operands' entries, a column slice reads the source at the offset column, a one-row broadcast reads its row, a shape
  cast to the same shape is the identity, and the pointwise operations act entry by entry.
-/
import proofs.«164272_j80831284510999_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Idealize.SL.Sem

/-! ## A matrix product into the zero accumulator, read at an entry -/

/-- The wide contraction (1024 columns of the left operand against 1024 rows of a 4096-column right operand). -/
abbrev dotW : DotDims S128x1024 S1024x4096 S128x4096 := dot_S128x1024_S1024x4096_S128x4096_1_0_0_1_n_n
/-- The square contraction (1024 columns of the left operand against 1024 rows of a 1024-column right operand). -/
abbrev dotN : DotDims S128x1024 S1024x1024 S128x1024 := dot_S128x1024_S1024x1024_S128x1024_1_0_0_1_n_n

theorem dotW_lhs0 (i : S128x4096.Idx) (q : dotW.contr.Idx) : (dotW.lhsIdx i q 0).val = (i 0).val := by
  unfold DotDims.lhsIdx
  rw [dif_neg (show ¬(0 : Fin S128x1024.rank) ∈ dotW.lhsBatch by decide), dif_pos (show (0 : Fin S128x1024.rank) ∈ dotW.lhsNonContracting by decide)]
  rfl
theorem dotW_lhs1 (i : S128x4096.Idx) (q : dotW.contr.Idx) : (dotW.lhsIdx i q 1).val = (q ⟨0, by decide⟩).val :=
  dotW.lhsIdx_val_of_single rfl i q
theorem dotW_rhs0 (i : S128x4096.Idx) (q : dotW.contr.Idx) : (dotW.rhsIdx i q 0).val = (q ⟨0, by decide⟩).val :=
  dotW.rhsIdx_val_of_single rfl i q
theorem dotW_rhs1 (i : S128x4096.Idx) (q : dotW.contr.Idx) : (dotW.rhsIdx i q 1).val = (i 1).val := by
  unfold DotDims.rhsIdx
  rw [dif_neg (show ¬(1 : Fin S1024x4096.rank) ∈ dotW.rhsBatch by decide), dif_pos (show (1 : Fin S1024x4096.rank) ∈ dotW.rhsNonContracting by decide)]
  rfl

/-- The wide product into the zero accumulator at `(p, q)`: the sum over `k` of `a (p, k) * w (k, q)`. -/
theorem matmulW_apply (a : FVec Ideal S128x1024 .bf16) (w : FVec Ideal S1024x4096 .bf16) (p : Fin 128) (q : Fin 4096) :
    matmul dotW none a w (constant (F := Ideal) S128x4096 .f32 0x00000000#32) (ix2 p q)
      = ∑ k : Fin 1024, a (ix2 p k) * w (ix2 k q) := by
  simp only [matmul]
  rw [Ideal.matmul_constant_zero_apply, ← Equiv.sum_comp (contrEquiv1 dotW 1024 rfl rfl).symm]
  refine Finset.sum_congr rfl fun k _ => ?_
  have hk := contrEquiv1_symm_val dotW 1024 rfl rfl k
  have el : dotW.lhsIdx (ix2 p q) ((contrEquiv1 dotW 1024 rfl rfl).symm k) = ix2 p k := funext fun b => Fin.ext (by
    match b with
    | ⟨0, _⟩ => exact dotW_lhs0 _ _
    | ⟨1, _⟩ => exact (dotW_lhs1 _ _).trans hk)
  have er : dotW.rhsIdx (ix2 p q) ((contrEquiv1 dotW 1024 rfl rfl).symm k) = ix2 k q := funext fun b => Fin.ext (by
    match b with
    | ⟨0, _⟩ => exact (dotW_rhs0 _ _).trans hk
    | ⟨1, _⟩ => exact dotW_rhs1 _ _)
  rw [el, er]

theorem dotN_lhs0 (i : S128x1024.Idx) (q : dotN.contr.Idx) : (dotN.lhsIdx i q 0).val = (i 0).val := by
  unfold DotDims.lhsIdx
  rw [dif_neg (show ¬(0 : Fin S128x1024.rank) ∈ dotN.lhsBatch by decide), dif_pos (show (0 : Fin S128x1024.rank) ∈ dotN.lhsNonContracting by decide)]
  rfl
theorem dotN_lhs1 (i : S128x1024.Idx) (q : dotN.contr.Idx) : (dotN.lhsIdx i q 1).val = (q ⟨0, by decide⟩).val :=
  dotN.lhsIdx_val_of_single rfl i q
theorem dotN_rhs0 (i : S128x1024.Idx) (q : dotN.contr.Idx) : (dotN.rhsIdx i q 0).val = (q ⟨0, by decide⟩).val :=
  dotN.rhsIdx_val_of_single rfl i q
theorem dotN_rhs1 (i : S128x1024.Idx) (q : dotN.contr.Idx) : (dotN.rhsIdx i q 1).val = (i 1).val := by
  unfold DotDims.rhsIdx
  rw [dif_neg (show ¬(1 : Fin S1024x1024.rank) ∈ dotN.rhsBatch by decide), dif_pos (show (1 : Fin S1024x1024.rank) ∈ dotN.rhsNonContracting by decide)]
  rfl

/-- The square product into the zero accumulator at `(p, j)`: the sum over `k` of `a (p, k) * w (k, j)`. -/
theorem matmulN_apply (a : FVec Ideal S128x1024 .bf16) (w : FVec Ideal S1024x1024 .bf16) (p : Fin 128) (j : Fin 1024) :
    matmul dotN none a w (constant (F := Ideal) S128x1024 .f32 0x00000000#32) (ix2 p j)
      = ∑ k : Fin 1024, a (ix2 p k) * w (ix2 k j) := by
  simp only [matmul]
  rw [Ideal.matmul_constant_zero_apply, ← Equiv.sum_comp (contrEquiv1 dotN 1024 rfl rfl).symm]
  refine Finset.sum_congr rfl fun k _ => ?_
  have hk := contrEquiv1_symm_val dotN 1024 rfl rfl k
  have el : dotN.lhsIdx (ix2 p j) ((contrEquiv1 dotN 1024 rfl rfl).symm k) = ix2 p k := funext fun b => Fin.ext (by
    match b with
    | ⟨0, _⟩ => exact dotN_lhs0 _ _
    | ⟨1, _⟩ => exact (dotN_lhs1 _ _).trans hk)
  have er : dotN.rhsIdx (ix2 p j) ((contrEquiv1 dotN 1024 rfl rfl).symm k) = ix2 k j := funext fun b => Fin.ext (by
    match b with
    | ⟨0, _⟩ => exact (dotN_rhs0 _ _).trans hk
    | ⟨1, _⟩ => exact dotN_rhs1 _ _)
  rw [el, er]

/-! ## The six values -/

/-- The format change of the context block is the identity. -/
theorem pay2_apply (v4 : Vec Ideal S128x1024 .f32) (i : S128x1024.Idx) : Gen.k0_pay2 v4 i = v4 i := rfl

/-- The four gates' pre-activations side by side at `(p, q)`: the three products' sums and the bias row. -/
theorem pay3_apply (v0 v2 v4 : Vec Ideal S128x1024 .f32) (v6 v9 v13 : Vec Ideal S1024x4096 .bf16)
    (v17 : Vec Ideal S1x4096 .f32) (p : Fin 128) (q : Fin 4096) :
    Gen.k0_pay3 v0 v2 v4 v6 v9 v13 v17 (ix2 p q)
      = (((∑ k : Fin 1024, v0 (ix2 p k) * v6 (ix2 k q)) + ∑ k : Fin 1024, v2 (ix2 p k) * v9 (ix2 k q))
          + ∑ k : Fin 1024, v4 (ix2 p k) * v13 (ix2 k q)) + v17 (ix2 0 q) := by
  unfold Gen.k0_pay3
  simp only [shapeCast_self]
  show ((matmul dotW none (truncf .bf16 v0 bitsLt_bf16_f32) v6 (constant (F := Ideal) S128x4096 .f32 0x00000000#32) (ix2 p q)
      + matmul dotW none (truncf .bf16 v2 bitsLt_bf16_f32) v9 (constant (F := Ideal) S128x4096 .f32 0x00000000#32) (ix2 p q))
      + matmul dotW none (Gen.k0_pay2 v4) v13 (constant (F := Ideal) S128x4096 .f32 0x00000000#32) (ix2 p q))
      + broadcastTo S128x4096 v17 broadcasts_S1x4096_S128x4096 (ix2 p q) = _
  rw [matmulW_apply, matmulW_apply, matmulW_apply, broadcastTo_1b_ab_apply]
  rfl

/-- The new cell state at `(p, j)`: the forget gate (columns 1024 to 2047) times the old state, plus the input gate
    (columns 0 to 1023) times the squashed candidate (columns 3072 to 4095). -/
theorem pay4_apply (v0 v2 v4 : Vec Ideal S128x1024 .f32) (v6 v9 v13 : Vec Ideal S1024x4096 .bf16)
    (v17 : Vec Ideal S1x4096 .f32) (v29 : Vec Ideal S128x1024 .f32) (p : Fin 128) (j : Fin 1024) :
    Gen.k0_pay4 v0 v2 v4 v6 v9 v13 v17 v29 (ix2 p j)
      = Ideal.logistic (Gen.k0_pay3 v0 v2 v4 v6 v9 v13 v17 (ix2 p (⟨1024 + j.val, by omega⟩ : Fin 4096))) * v29 (ix2 p j)
        + Ideal.logistic (Gen.k0_pay3 v0 v2 v4 v6 v9 v13 v17 (ix2 p (⟨j.val, by omega⟩ : Fin 4096)))
          * Ideal.tanh (Gen.k0_pay3 v0 v2 v4 v6 v9 v13 v17 (ix2 p (⟨3072 + j.val, by omega⟩ : Fin 4096))) := by
  unfold Gen.k0_pay4
  generalize Gen.k0_pay3 v0 v2 v4 v6 v9 v13 v17 = X
  show Ideal.logistic (extractStridedSlice S128x1024 ![0, 1024] X slices_S128x4096_o0_1024_S128x1024 (ix2 p j)) * v29 (ix2 p j)
      + Ideal.logistic (extractStridedSlice S128x1024 ![0, 0] X slices_S128x4096_o0_0_S128x1024 (ix2 p j))
        * Ideal.tanh (extractStridedSlice S128x1024 ![0, 3072] X slices_S128x4096_o0_3072_S128x1024 (ix2 p j)) = _
  rw [slice2_axis1_apply 1024 X slices_S128x4096_o0_1024_S128x1024 p j (⟨1024 + j.val, by omega⟩ : Fin 4096) rfl,
    slice2_axis1_apply 0 X slices_S128x4096_o0_0_S128x1024 p j (⟨j.val, by omega⟩ : Fin 4096) (Nat.zero_add _).symm,
    slice2_axis1_apply 3072 X slices_S128x4096_o0_3072_S128x1024 p j (⟨3072 + j.val, by omega⟩ : Fin 4096) rfl]

/-- The new hidden state at `(p, j)`: the output gate (columns 2048 to 3071) times the squashed new cell state. -/
theorem pay5_apply (v0 v2 v4 : Vec Ideal S128x1024 .f32) (v6 v9 v13 : Vec Ideal S1024x4096 .bf16)
    (v17 : Vec Ideal S1x4096 .f32) (v29 : Vec Ideal S128x1024 .f32) (p : Fin 128) (j : Fin 1024) :
    Gen.k0_pay5 v0 v2 v4 v6 v9 v13 v17 v29 (ix2 p j)
      = Ideal.logistic (Gen.k0_pay3 v0 v2 v4 v6 v9 v13 v17 (ix2 p (⟨2048 + j.val, by omega⟩ : Fin 4096)))
        * Ideal.tanh (Gen.k0_pay4 v0 v2 v4 v6 v9 v13 v17 v29 (ix2 p j)) := by
  unfold Gen.k0_pay5
  generalize Gen.k0_pay3 v0 v2 v4 v6 v9 v13 v17 = X
  generalize Gen.k0_pay4 v0 v2 v4 v6 v9 v13 v17 v29 = Y
  show Ideal.logistic (extractStridedSlice S128x1024 ![0, 2048] X slices_S128x4096_o0_2048_S128x1024 (ix2 p j))
      * Ideal.tanh (Y (ix2 p j)) = _
  rw [slice2_axis1_apply 2048 X slices_S128x4096_o0_2048_S128x1024 p j (⟨2048 + j.val, by omega⟩ : Fin 4096) rfl]

/-- The format change of the new hidden state is the identity. -/
theorem pay6_apply (v0 v2 v4 : Vec Ideal S128x1024 .f32) (v6 v9 v13 : Vec Ideal S1024x4096 .bf16)
    (v17 : Vec Ideal S1x4096 .f32) (v29 : Vec Ideal S128x1024 .f32) (i : S128x1024.Idx) :
    Gen.k0_pay6 v0 v2 v4 v6 v9 v13 v17 v29 i = Gen.k0_pay5 v0 v2 v4 v6 v9 v13 v17 v29 i := rfl

/-- The residual before the output projection: the embedded input plus the projected hidden state and its bias row,
    plus the projected context and its bias row. -/
def residVec (v5 v35 : FVec Ideal S128x1024 .bf16) (v36 : FVec Ideal S128x1024 .f32) (v37 : FVec Ideal S1024x1024 .bf16)
    (v41 : FVec Ideal S1x1024 .f32) (v45 : FVec Ideal S1024x1024 .bf16) (v49 : FVec Ideal S1x1024 .f32) :
    FVec Ideal S128x1024 .f32 :=
  addf (addf (addf (addf v36 (matmul dotN none v35 v37 (constant (F := Ideal) S128x1024 .f32 0x00000000#32)))
    (broadcastTo S128x1024 v41 broadcasts_S1x1024_S128x1024))
    (matmul dotN none v5 v45 (constant (F := Ideal) S128x1024 .f32 0x00000000#32)))
    (broadcastTo S128x1024 v49 broadcasts_S1x1024_S128x1024)

/-- The residual at `(p, k)`. -/
theorem residVec_apply (v5 v35 : FVec Ideal S128x1024 .bf16) (v36 : FVec Ideal S128x1024 .f32) (v37 : FVec Ideal S1024x1024 .bf16)
    (v41 : FVec Ideal S1x1024 .f32) (v45 : FVec Ideal S1024x1024 .bf16) (v49 : FVec Ideal S1x1024 .f32) (p : Fin 128) (k : Fin 1024) :
    residVec v5 v35 v36 v37 v41 v45 v49 (ix2 p k)
      = (((v36 (ix2 p k) + ∑ l : Fin 1024, v35 (ix2 p l) * v37 (ix2 l k)) + v41 (ix2 0 k))
          + ∑ l : Fin 1024, v5 (ix2 p l) * v45 (ix2 l k)) + v49 (ix2 0 k) := by
  unfold residVec
  show (((v36 (ix2 p k) + matmul dotN none v35 v37 (constant (F := Ideal) S128x1024 .f32 0x00000000#32) (ix2 p k))
      + broadcastTo S128x1024 v41 broadcasts_S1x1024_S128x1024 (ix2 p k))
      + matmul dotN none v5 v45 (constant (F := Ideal) S128x1024 .f32 0x00000000#32) (ix2 p k))
      + broadcastTo S128x1024 v49 broadcasts_S1x1024_S128x1024 (ix2 p k) = _
  rw [matmulN_apply, matmulN_apply, broadcastTo_1b_ab_apply, broadcastTo_1b_ab_apply]

/-- The residual output projection at `(p, j)`: the residual's row `p` against column `j` of the projection, and
    the bias row. -/
theorem pay1_apply (v5 v35 : FVec Ideal S128x1024 .bf16) (v36 : Vec Ideal S128x1024 .f32) (v37 : Vec Ideal S1024x1024 .bf16)
    (v41 : Vec Ideal S1x1024 .f32) (v45 : Vec Ideal S1024x1024 .bf16) (v49 : Vec Ideal S1x1024 .f32)
    (v54 : Vec Ideal S1024x1024 .bf16) (v57 : Vec Ideal S1x1024 .f32) (p : Fin 128) (j : Fin 1024) :
    Gen.k0_pay1 v5 v35 v36 v37 v41 v45 v49 v54 v57 (ix2 p j)
      = (∑ k : Fin 1024, ((((v36 (ix2 p k) + ∑ l : Fin 1024, v35 (ix2 p l) * v37 (ix2 l k)) + v41 (ix2 0 k))
          + ∑ l : Fin 1024, v5 (ix2 p l) * v45 (ix2 l k)) + v49 (ix2 0 k)) * v54 (ix2 k j)) + v57 (ix2 0 j) := by
  unfold Gen.k0_pay1
  simp only [shapeCast_self]
  show matmul dotN none (truncf .bf16 (residVec v5 v35 v36 v37 v41 v45 v49) bitsLt_bf16_f32) v54
      (constant (F := Ideal) S128x1024 .f32 0x00000000#32) (ix2 p j)
      + broadcastTo S128x1024 v57 broadcasts_S1x1024_S128x1024 (ix2 p j) = _
  rw [matmulN_apply, broadcastTo_1b_ab_apply]
  refine congrArg (· + v57 (ix2 0 j)) (Finset.sum_congr rfl fun k _ => ?_)
  exact congrArg (· * v54 (ix2 k j)) (residVec_apply v5 v35 v36 v37 v41 v45 v49 p k)

end Cert.KernelIdeal.Payload

end
-- ==== Proof.Spec.lean ====
/-
  One step of an LSTM cell followed by a residual output projection, over the extended reals.

  The step acts on each batch row by itself. For one row, with activations `e` (the embedded input), `h` (the previous
  hidden state), `c` (the context vector) and `s` (the previous cell state), all of length 1024, and for each gate a weight
  matrix `W` of 1024 rows and 3072 columns and a bias `b`:

    pre W b j   = (sum_k e k * W j k + sum_k h k * W j (1024 + k)) + sum_k c k * W j (2048 + k) + b j
    cell j      = logistic (pre Wf bf j) * s j + logistic (pre Wi bi j) * tanh (pre Wg bg j)
    hidden j    = logistic (pre Wo bo j) * tanh (cell j)
    resid k     = (((e k + sum_l hidden l * Wh k l) + bh k) + sum_l c l * Wc k l) + bc k
    pred j      = sum_k resid k * Wp j k + bp j

  The three partial sums of `pre` are one sum over the 3072 columns of the row `[e, h, c]`, and the five terms of
  `resid` may be grouped either way: addition of extended reals is commutative and associative, and nothing else is
  used to pass between the two formulations, so no entry need be finite.
-/
import Idealize.ShloMosaic.PureOps.Ideal
import Idealize.ShloMosaic.Lib.ValueIdx

noncomputable section

open scoped BigOperators

namespace Cert.Lstm

open Idealize.ShloMosaic Idealize.ShloMosaic.ValueIdx

/-- Column `a + k` of a row of 3072 entries, for an offset `a` with `a + 1024 ≤ 3072`. -/
abbrev col (a : ℕ) (ha : a + 1024 ≤ 3072) (k : Fin 1024) : Fin 3072 := ⟨a + k.val, by omega⟩

/-- A gate's pre-activation at hidden unit `j` of one batch row: the three partial inner products of the row's
    activations with the three column ranges of the gate's weight row `j`, and the bias. -/
def pre (e h c : Fin 1024 → EReal) (W : Fin 1024 → Fin 3072 → EReal) (b : Fin 1024 → EReal) (j : Fin 1024) : EReal :=
  (((∑ k, e k * W j (col 0 (by omega) k)) + ∑ k, h k * W j (col 1024 (by omega) k))
    + ∑ k, c k * W j (col 2048 (by omega) k)) + b j

/-- The new cell state of one batch row: the forget gate times the old state plus the input gate times the candidate. -/
def cell (e h c s : Fin 1024 → EReal) (Wi Wf Wg : Fin 1024 → Fin 3072 → EReal) (bi bf bg : Fin 1024 → EReal)
    (j : Fin 1024) : EReal :=
  Ideal.logistic (pre e h c Wf bf j) * s j + Ideal.logistic (pre e h c Wi bi j) * Ideal.tanh (pre e h c Wg bg j)

/-- The new hidden state of one batch row: the output gate times the squashed cell state. -/
def hidden (e h c s : Fin 1024 → EReal) (Wi Wf Wo Wg : Fin 1024 → Fin 3072 → EReal) (bi bf bo bg : Fin 1024 → EReal)
    (j : Fin 1024) : EReal :=
  Ideal.logistic (pre e h c Wo bo j) * Ideal.tanh (cell e h c s Wi Wf Wg bi bf bg j)

/-- The residual of one batch row: the embedded input plus the projected hidden state plus the projected context. -/
def resid (e c hid : Fin 1024 → EReal) (Wh Wc : Fin 1024 → Fin 1024 → EReal) (bh bc : Fin 1024 → EReal)
    (k : Fin 1024) : EReal :=
  (((e k + ∑ l, hid l * Wh k l) + bh k) + ∑ l, c l * Wc k l) + bc k

/-- The prediction of one batch row: the residual projected once more. -/
def pred (e c hid : Fin 1024 → EReal) (Wh Wc Wp : Fin 1024 → Fin 1024 → EReal) (bh bc bp : Fin 1024 → EReal)
    (j : Fin 1024) : EReal :=
  (∑ k, resid e c hid Wh Wc bh bc k * Wp j k) + bp j

/-! ## The arrays -/

/-- Row `r` of a batch array. -/
def row (x : FVec Ideal ⟨2, ![4096, 1024]⟩ .f32) (r : Fin 4096) : Fin 1024 → EReal := fun k => x (ix2 r k)
/-- A weight matrix by row and column. -/
def mat {n : ℕ} (W : FVec Ideal ⟨2, ![1024, n]⟩ .f32) : Fin 1024 → Fin n → EReal := fun j k => W (ix2 j k)
/-- A bias by entry. -/
def vec (b : FVec Ideal ⟨1, ![1024]⟩ .f32) : Fin 1024 → EReal := fun j => b (ix1 j)

variable (x0 x1 x2 x3 : FVec Ideal ⟨2, ![4096, 1024]⟩ .f32)
  (W4 : FVec Ideal ⟨2, ![1024, 3072]⟩ .f32) (b5 : FVec Ideal ⟨1, ![1024]⟩ .f32)
  (W6 : FVec Ideal ⟨2, ![1024, 3072]⟩ .f32) (b7 : FVec Ideal ⟨1, ![1024]⟩ .f32)
  (W8 : FVec Ideal ⟨2, ![1024, 3072]⟩ .f32) (b9 : FVec Ideal ⟨1, ![1024]⟩ .f32)
  (W10 : FVec Ideal ⟨2, ![1024, 3072]⟩ .f32) (b11 : FVec Ideal ⟨1, ![1024]⟩ .f32)
  (W12 : FVec Ideal ⟨2, ![1024, 1024]⟩ .f32) (b13 : FVec Ideal ⟨1, ![1024]⟩ .f32)
  (W14 : FVec Ideal ⟨2, ![1024, 1024]⟩ .f32) (b15 : FVec Ideal ⟨1, ![1024]⟩ .f32)
  (W16 : FVec Ideal ⟨2, ![1024, 1024]⟩ .f32) (b17 : FVec Ideal ⟨1, ![1024]⟩ .f32)

/-- The new cell states of the whole batch, from the arguments in the programs' order: `x0` the embedded inputs, `x1`
    the hidden states, `x2` the cell states, `x3` the context vectors; `W4, b5` the input gate, `W6, b7` the forget
    gate, `W10, b11` the candidate. -/
def cellArr : FVec Ideal ⟨2, ![4096, 1024]⟩ .f32 := fun i =>
  cell (row x0 (i 0)) (row x1 (i 0)) (row x3 (i 0)) (row x2 (i 0)) (mat W4) (mat W6) (mat W10) (vec b5) (vec b7) (vec b11) (i 1)

/-- The new hidden states of the whole batch (`W8, b9` the output gate). -/
def hiddenArr : FVec Ideal ⟨2, ![4096, 1024]⟩ .f32 := fun i =>
  hidden (row x0 (i 0)) (row x1 (i 0)) (row x3 (i 0)) (row x2 (i 0)) (mat W4) (mat W6) (mat W8) (mat W10)
    (vec b5) (vec b7) (vec b9) (vec b11) (i 1)

/-- The predictions of the whole batch (`W14, b15` project the hidden state, `W12, b13` the context, `W16, b17` the
    residual). -/
def predArr : FVec Ideal ⟨2, ![4096, 1024]⟩ .f32 := fun i =>
  pred (row x0 (i 0)) (row x3 (i 0))
    (hidden (row x0 (i 0)) (row x1 (i 0)) (row x3 (i 0)) (row x2 (i 0)) (mat W4) (mat W6) (mat W8) (mat W10)
      (vec b5) (vec b7) (vec b9) (vec b11))
    (mat W14) (mat W12) (mat W16) (vec b15) (vec b13) (vec b17) (i 1)

end Cert.Lstm

end
-- ==== Proof.Layout.lean ====
/-
  What the kernel's input blocks hold, as predicates joining a block to the argument arrays.

  The kernel is handed, at each grid point, 128 consecutive rows of each batch array (`Rows`), and the whole of ten
  arrays the host prepared: for each of the three column ranges of the gates' weight rows, the four gates' ranges
  transposed and laid side by side along 4096 columns, gate after gate (`Packs`); the four gates' biases end to end as one
  row (`PacksBias`); each projection matrix transposed (`Transposed`); each projection bias as one row (`AsRow`).
-/
import proofs.«164272_j80831284510999_2_alg».proof.KernelIdeal
import proofs.«164272_j80831284510999_2_alg».proof.Proof.Spec

noncomputable section

namespace Cert.KernelIdeal.Block

open Cert.KernelIdeal Idealize.ShloMosaic Idealize.ShloMosaic.ValueIdx Cert.Lstm

/-- The block holds rows `r0 … r0 + 127` of the batch array `a`. -/
def Rows (r0 : ℕ) (hr : r0 + 128 ≤ 4096) (x : Vec Ideal S128x1024 .f32) (a : FVec Ideal ⟨2, ![4096, 1024]⟩ .f32) : Prop :=
  ∀ (p : Fin 128) (k : Fin 1024), x (ix2 p k) = a (ix2 (⟨r0 + p.val, by omega⟩ : Fin 4096) k)

/-- Gate after gate along its 4096 columns, the array holds columns `a … a + 1023` of each gate's weight rows,
    transposed: entry `(k, g * 1024 + j)` is gate `g`'s weight at row `j`, column `a + k`. -/
def Packs (a : ℕ) (ha : a + 1024 ≤ 3072) (x : Vec Ideal S1024x4096 .bf16) (Wi Wf Wo Wg : FVec Ideal ⟨2, ![1024, 3072]⟩ .f32) : Prop :=
  ∀ k j : Fin 1024, x (ix2 k (⟨j.val, by omega⟩ : Fin 4096)) = Wi (ix2 j (col a ha k))
    ∧ x (ix2 k (⟨1024 + j.val, by omega⟩ : Fin 4096)) = Wf (ix2 j (col a ha k))
    ∧ x (ix2 k (⟨2048 + j.val, by omega⟩ : Fin 4096)) = Wo (ix2 j (col a ha k))
    ∧ x (ix2 k (⟨3072 + j.val, by omega⟩ : Fin 4096)) = Wg (ix2 j (col a ha k))

/-- The one row holds the four gates' biases end to end. -/
def PacksBias (x : Vec Ideal S1x4096 .f32) (bi bf bo bg : FVec Ideal ⟨1, ![1024]⟩ .f32) : Prop :=
  ∀ j : Fin 1024, x (ix2 (0 : Fin 1) (⟨j.val, by omega⟩ : Fin 4096)) = bi (ix1 j)
    ∧ x (ix2 (0 : Fin 1) (⟨1024 + j.val, by omega⟩ : Fin 4096)) = bf (ix1 j)
    ∧ x (ix2 (0 : Fin 1) (⟨2048 + j.val, by omega⟩ : Fin 4096)) = bo (ix1 j)
    ∧ x (ix2 (0 : Fin 1) (⟨3072 + j.val, by omega⟩ : Fin 4096)) = bg (ix1 j)

/-- The array is the matrix `W` transposed. -/
def Transposed (x : Vec Ideal S1024x1024 .bf16) (W : FVec Ideal ⟨2, ![1024, 1024]⟩ .f32) : Prop :=
  ∀ l k : Fin 1024, x (ix2 l k) = W (ix2 k l)

/-- The one row holds the vector `b`. -/
def AsRow (x : Vec Ideal S1x1024 .f32) (b : FVec Ideal ⟨1, ![1024]⟩ .f32) : Prop :=
  ∀ k : Fin 1024, x (ix2 (0 : Fin 1) k) = b (ix1 k)

end Cert.KernelIdeal.Block

end
-- ==== Proof.Block.lean ====
/-
  One block of the LSTM cell step against the specification.

  A block of the kernel holds 128 consecutive rows of each batch array; the gates' weights arrive packed side by side
  along 4096 columns (input, forget, output, candidate; each the transpose of a 1024-column range of the gate's weight
  rows), the gates' biases likewise along one row of 4096, the three projections transposed, and their biases as rows.
  Under these hypotheses the new cell state, the new hidden state and the prediction the body computes at row `p` of
  the block and column `j` are the specification's at row `r0 + p` and column `j`: each sum is rewritten term by term,
  and no arithmetic law is used.
-/
import proofs.«164272_j80831284510999_2_alg».proof.Proof.Payload
import proofs.«164272_j80831284510999_2_alg».proof.Proof.Layout

noncomputable section

open scoped BigOperators

namespace Cert.KernelIdeal.Block

open Cert.KernelIdeal Cert.KernelIdeal.Gen Cert.KernelIdeal.Payload Idealize.ShloMosaic Idealize.ShloMosaic.ValueIdx Cert.Lstm

variable {r0 : ℕ} {hr : r0 + 128 ≤ 4096}
  {x0 x1 x2 x3 : Vec Ideal S128x1024 .f32} {x4 x5 x6 : Vec Ideal S1024x4096 .bf16} {x7 : Vec Ideal S1x4096 .f32}
  {x8 x9 x10 : Vec Ideal S1024x1024 .bf16} {x11 x12 x13 : Vec Ideal S1x1024 .f32}
  {a0 a1 a2 a3 : FVec Ideal ⟨2, ![4096, 1024]⟩ .f32}
  {W4 W6 W8 W10 : FVec Ideal ⟨2, ![1024, 3072]⟩ .f32} {b5 b7 b9 b11 : FVec Ideal ⟨1, ![1024]⟩ .f32}
  {W12 W14 W16 : FVec Ideal ⟨2, ![1024, 1024]⟩ .f32} {b13 b15 b17 : FVec Ideal ⟨1, ![1024]⟩ .f32}

/-! ## A gate's pre-activation -/

/-- The pre-activations at row `p` and a column `q` whose three weight columns are row `j` of a gate's weight matrix
    (one 1024-column range each) and whose bias entry is the gate's at `j`: the specification's pre-activation of
    that gate at hidden unit `j` of row `r0 + p`. -/
theorem pay3_eq_pre (h0 : Rows r0 hr x0 a0) (h1 : Rows r0 hr x1 a1) (h3 : Rows r0 hr x3 a3)
    (W : FVec Ideal ⟨2, ![1024, 3072]⟩ .f32) (b : FVec Ideal ⟨1, ![1024]⟩ .f32) (p : Fin 128) (q : Fin 4096) (j : Fin 1024)
    (e4 : ∀ k : Fin 1024, x4 (ix2 k q) = W (ix2 j (col 0 (by omega) k)))
    (e5 : ∀ k : Fin 1024, x5 (ix2 k q) = W (ix2 j (col 1024 (by omega) k)))
    (e6 : ∀ k : Fin 1024, x6 (ix2 k q) = W (ix2 j (col 2048 (by omega) k)))
    (e7 : x7 (ix2 0 q) = b (ix1 j)) :
    Gen.k0_pay3 x0 x1 x3 x4 x5 x6 x7 (ix2 p q)
      = Cert.Lstm.pre (row a0 (⟨r0 + p.val, by omega⟩ : Fin 4096)) (row a1 (⟨r0 + p.val, by omega⟩ : Fin 4096))
          (row a3 (⟨r0 + p.val, by omega⟩ : Fin 4096)) (mat W) (vec b) j := by
  rw [pay3_apply]
  unfold Cert.Lstm.pre
  refine congrArg₂ (· + ·) (congrArg₂ (· + ·) (congrArg₂ (· + ·)
    (Finset.sum_congr rfl fun k _ => congrArg₂ (· * ·) (h0 p k) (e4 k))
    (Finset.sum_congr rfl fun k _ => congrArg₂ (· * ·) (h1 p k) (e5 k)))
    (Finset.sum_congr rfl fun k _ => congrArg₂ (· * ·) (h3 p k) (e6 k))) e7

section Gates
variable (h0 : Rows r0 hr x0 a0) (h1 : Rows r0 hr x1 a1) (h3 : Rows r0 hr x3 a3)
  (h4 : Packs 0 (by omega) x4 W4 W6 W8 W10) (h5 : Packs 1024 (by omega) x5 W4 W6 W8 W10)
  (h6 : Packs 2048 (by omega) x6 W4 W6 W8 W10) (h7 : PacksBias x7 b5 b7 b9 b11) (p : Fin 128) (j : Fin 1024)
include h0 h1 h3 h4 h5 h6 h7

/-- The input gate's pre-activation (columns 0 to 1023). -/
theorem pre_input :
    Gen.k0_pay3 x0 x1 x3 x4 x5 x6 x7 (ix2 p (⟨j.val, by omega⟩ : Fin 4096))
      = Cert.Lstm.pre (row a0 (⟨r0 + p.val, by omega⟩ : Fin 4096)) (row a1 (⟨r0 + p.val, by omega⟩ : Fin 4096))
          (row a3 (⟨r0 + p.val, by omega⟩ : Fin 4096)) (mat W4) (vec b5) j :=
  pay3_eq_pre h0 h1 h3 W4 b5 p _ j (fun k => (h4 k j).1) (fun k => (h5 k j).1) (fun k => (h6 k j).1) (h7 j).1

/-- The forget gate's pre-activation (columns 1024 to 2047). -/
theorem pre_forget :
    Gen.k0_pay3 x0 x1 x3 x4 x5 x6 x7 (ix2 p (⟨1024 + j.val, by omega⟩ : Fin 4096))
      = Cert.Lstm.pre (row a0 (⟨r0 + p.val, by omega⟩ : Fin 4096)) (row a1 (⟨r0 + p.val, by omega⟩ : Fin 4096))
          (row a3 (⟨r0 + p.val, by omega⟩ : Fin 4096)) (mat W6) (vec b7) j :=
  pay3_eq_pre h0 h1 h3 W6 b7 p _ j (fun k => (h4 k j).2.1) (fun k => (h5 k j).2.1) (fun k => (h6 k j).2.1) (h7 j).2.1

/-- The output gate's pre-activation (columns 2048 to 3071). -/
theorem pre_output :
    Gen.k0_pay3 x0 x1 x3 x4 x5 x6 x7 (ix2 p (⟨2048 + j.val, by omega⟩ : Fin 4096))
      = Cert.Lstm.pre (row a0 (⟨r0 + p.val, by omega⟩ : Fin 4096)) (row a1 (⟨r0 + p.val, by omega⟩ : Fin 4096))
          (row a3 (⟨r0 + p.val, by omega⟩ : Fin 4096)) (mat W8) (vec b9) j :=
  pay3_eq_pre h0 h1 h3 W8 b9 p _ j (fun k => (h4 k j).2.2.1) (fun k => (h5 k j).2.2.1) (fun k => (h6 k j).2.2.1) (h7 j).2.2.1

/-- The candidate's pre-activation (columns 3072 to 4095). -/
theorem pre_candidate :
    Gen.k0_pay3 x0 x1 x3 x4 x5 x6 x7 (ix2 p (⟨3072 + j.val, by omega⟩ : Fin 4096))
      = Cert.Lstm.pre (row a0 (⟨r0 + p.val, by omega⟩ : Fin 4096)) (row a1 (⟨r0 + p.val, by omega⟩ : Fin 4096))
          (row a3 (⟨r0 + p.val, by omega⟩ : Fin 4096)) (mat W10) (vec b11) j :=
  pay3_eq_pre h0 h1 h3 W10 b11 p _ j (fun k => (h4 k j).2.2.2) (fun k => (h5 k j).2.2.2) (fun k => (h6 k j).2.2.2) (h7 j).2.2.2

end Gates

/-! ## The three stored values -/

section Stored
variable (h0 : Rows r0 hr x0 a0) (h1 : Rows r0 hr x1 a1) (h2 : Rows r0 hr x2 a2) (h3 : Rows r0 hr x3 a3)
  (h4 : Packs 0 (by omega) x4 W4 W6 W8 W10) (h5 : Packs 1024 (by omega) x5 W4 W6 W8 W10)
  (h6 : Packs 2048 (by omega) x6 W4 W6 W8 W10) (h7 : PacksBias x7 b5 b7 b9 b11)
include h0 h1 h2 h3 h4 h5 h6 h7

/-- The new cell state of the block at `(p, j)` is the specification's at `(r0 + p, j)`. -/
theorem cell_block (p : Fin 128) (j : Fin 1024) :
    Gen.k0_pay4 x0 x1 x3 x4 x5 x6 x7 x2 (ix2 p j)
      = Cert.Lstm.cellArr a0 a1 a2 a3 W4 b5 W6 b7 W10 b11 (ix2 (⟨r0 + p.val, by omega⟩ : Fin 4096) j) := by
  rw [pay4_apply, pre_forget h0 h1 h3 h4 h5 h6 h7 p j, pre_input h0 h1 h3 h4 h5 h6 h7 p j,
    pre_candidate h0 h1 h3 h4 h5 h6 h7 p j, h2 p j]
  rfl

/-- The new hidden state of the block at `(p, j)` is the specification's at `(r0 + p, j)`. -/
theorem hidden_block (p : Fin 128) (j : Fin 1024) :
    Gen.k0_pay5 x0 x1 x3 x4 x5 x6 x7 x2 (ix2 p j)
      = Cert.Lstm.hiddenArr a0 a1 a2 a3 W4 b5 W6 b7 W8 b9 W10 b11 (ix2 (⟨r0 + p.val, by omega⟩ : Fin 4096) j) := by
  rw [pay5_apply, pre_output h0 h1 h3 h4 h5 h6 h7 p j, cell_block h0 h1 h2 h3 h4 h5 h6 h7 p j]
  rfl

/-- The prediction of the block at `(p, j)` is the specification's at `(r0 + p, j)`. -/
theorem pred_block (h8 : Transposed x8 W14) (h9 : Transposed x9 W12) (h10 : Transposed x10 W16)
    (h11 : AsRow x11 b15) (h12 : AsRow x12 b13) (h13 : AsRow x13 b17) (p : Fin 128) (j : Fin 1024) :
    Gen.k0_pay1 (Gen.k0_pay2 x3) (Gen.k0_pay6 x0 x1 x3 x4 x5 x6 x7 x2) x0 x8 x11 x9 x12 x10 x13 (ix2 p j)
      = Cert.Lstm.predArr a0 a1 a2 a3 W4 b5 W6 b7 W8 b9 W10 b11 W12 b13 W14 b15 W16 b17
          (ix2 (⟨r0 + p.val, by omega⟩ : Fin 4096) j) := by
  rw [pay1_apply]
  unfold Cert.Lstm.predArr Cert.Lstm.pred
  refine congrArg₂ (· + ·) (Finset.sum_congr rfl fun k _ => congrArg₂ (· * ·) ?_ (h10 k j)) (h13 j)
  unfold Cert.Lstm.resid
  exact congrArg₂ (· + ·) (congrArg₂ (· + ·) (congrArg₂ (· + ·) (congrArg₂ (· + ·) (h0 p k)
    (Finset.sum_congr rfl fun l _ => congrArg₂ (· * ·) (hidden_block h0 h1 h2 h3 h4 h5 h6 h7 p l) (h8 l k))) (h11 k))
    (Finset.sum_congr rfl fun l _ => congrArg₂ (· * ·) (h3 p l) (h9 l k))) (h12 k)

end Stored

end Cert.KernelIdeal.Block

end
-- ==== Proof.PrefixTerms.lean ====
/-
  What the arrays the host prepares for the kernel hold.

  Before the kernel runs, the host lays the weights out for it. For each of the three column ranges of the gates'
  weight rows it transposes each gate's matrix, cuts the range's 1024 rows out of the transpose, and joins the four
  gates' pieces side by side along 4096 columns: entry `(k, g * 1024 + j)` of the joined array is gate `g`'s weight at row
  `j` and column `off + k`. It joins the four gates' biases end to end and reads them as one row; it transposes each
  projection matrix; and it reads each projection bias as one row. The changes of number format are the identity on
  extended reals. Each statement reads the layout operations at an index, one after the other.
-/
import proofs.«164272_j80831284510999_2_alg».proof.KernelIdeal
import proofs.«164272_j80831284510999_2_alg».proof.Proof.Layout
import Idealize.ShloMosaic.Lib.Pipeline.Value
import Idealize.ShloMosaic.Lib.ValueIdx
import Idealize.ShloMosaic.Lib.ValueLayout

noncomputable section

namespace Cert.KernelIdeal.PrefixTerms

open Cert.KernelIdeal Cert.KernelIdeal.Block Idealize.ShloMosaic Idealize.ShloMosaic.ValueIdx Cert.Lstm

variable [Facts₀]
open Facts₀

/-! ## Four pieces joined -/

section Joined
variable {α : Type}

/-- Four square pieces side by side: column `g * 1024 + j` of the joined array is column `j` of piece `g`. -/
theorem joined_cols (P0 P1 P2 P3 : S1024x1024.Idx → α) (k j : Fin 1024) :
    concatenate S1024x4096 1 [⟨S1024x1024, P0⟩, ⟨S1024x1024, P1⟩, ⟨S1024x1024, P2⟩, ⟨S1024x1024, P3⟩] concatenates_S1024x1024_S1024x1024_S1024x1024_S1024x1024_S1024x4096_d1 (ix2 k (⟨j.val, by omega⟩ : Fin 4096)) = P0 (ix2 k j)
    ∧ concatenate S1024x4096 1 [⟨S1024x1024, P0⟩, ⟨S1024x1024, P1⟩, ⟨S1024x1024, P2⟩, ⟨S1024x1024, P3⟩] concatenates_S1024x1024_S1024x1024_S1024x1024_S1024x1024_S1024x4096_d1 (ix2 k (⟨1024 + j.val, by omega⟩ : Fin 4096)) = P1 (ix2 k j)
    ∧ concatenate S1024x4096 1 [⟨S1024x1024, P0⟩, ⟨S1024x1024, P1⟩, ⟨S1024x1024, P2⟩, ⟨S1024x1024, P3⟩] concatenates_S1024x1024_S1024x1024_S1024x1024_S1024x1024_S1024x4096_d1 (ix2 k (⟨2048 + j.val, by omega⟩ : Fin 4096)) = P2 (ix2 k j)
    ∧ concatenate S1024x4096 1 [⟨S1024x1024, P0⟩, ⟨S1024x1024, P1⟩, ⟨S1024x1024, P2⟩, ⟨S1024x1024, P3⟩] concatenates_S1024x1024_S1024x1024_S1024x1024_S1024x1024_S1024x4096_d1 (ix2 k (⟨3072 + j.val, by omega⟩ : Fin 4096)) = P3 (ix2 k j) := by
  refine ⟨?_, ?_, ?_, ?_⟩
  · refine concatenate_apply_piece (t := S1024x4096) (1 : Fin 2) [⟨S1024x1024, P0⟩, ⟨S1024x1024, P1⟩, ⟨S1024x1024, P2⟩, ⟨S1024x1024, P3⟩]
      concatenates_S1024x1024_S1024x1024_S1024x1024_S1024x1024_S1024x4096_d1 _ 0 (by show (0 : ℕ) < 4; decide) S1024x1024 P0 rfl rfl 0 rfl (ix2 k j) ?_ ?_
    · intro b hb
      match b with
      | ⟨0, _⟩ => rfl
      | ⟨1, _⟩ => exact absurd rfl hb
    · exact Nat.zero_add _
  · refine concatenate_apply_piece (t := S1024x4096) (1 : Fin 2) [⟨S1024x1024, P0⟩, ⟨S1024x1024, P1⟩, ⟨S1024x1024, P2⟩, ⟨S1024x1024, P3⟩]
      concatenates_S1024x1024_S1024x1024_S1024x1024_S1024x1024_S1024x4096_d1 _ 1 (by show (1 : ℕ) < 4; decide) S1024x1024 P1 rfl rfl 1024 rfl (ix2 k j) ?_ ?_
    · intro b hb
      match b with
      | ⟨0, _⟩ => rfl
      | ⟨1, _⟩ => exact absurd rfl hb
    · rfl
  · refine concatenate_apply_piece (t := S1024x4096) (1 : Fin 2) [⟨S1024x1024, P0⟩, ⟨S1024x1024, P1⟩, ⟨S1024x1024, P2⟩, ⟨S1024x1024, P3⟩]
      concatenates_S1024x1024_S1024x1024_S1024x1024_S1024x1024_S1024x4096_d1 _ 2 (by show (2 : ℕ) < 4; decide) S1024x1024 P2 rfl rfl 2048 rfl (ix2 k j) ?_ ?_
    · intro b hb
      match b with
      | ⟨0, _⟩ => rfl
      | ⟨1, _⟩ => exact absurd rfl hb
    · rfl
  · refine concatenate_apply_piece (t := S1024x4096) (1 : Fin 2) [⟨S1024x1024, P0⟩, ⟨S1024x1024, P1⟩, ⟨S1024x1024, P2⟩, ⟨S1024x1024, P3⟩]
      concatenates_S1024x1024_S1024x1024_S1024x1024_S1024x1024_S1024x4096_d1 _ 3 (by show (3 : ℕ) < 4; decide) S1024x1024 P3 rfl rfl 3072 rfl (ix2 k j) ?_ ?_
    · intro b hb
      match b with
      | ⟨0, _⟩ => rfl
      | ⟨1, _⟩ => exact absurd rfl hb
    · rfl

/-- Four vectors end to end: entry `g * 1024 + j` of the joined vector is entry `j` of vector `g`. -/
theorem joined_vec (v0 v1 v2 v3 : S1024.Idx → α) (j : Fin 1024) :
    concatenate S4096 0 [⟨S1024, v0⟩, ⟨S1024, v1⟩, ⟨S1024, v2⟩, ⟨S1024, v3⟩] concatenates_S1024_S1024_S1024_S1024_S4096_d0 (ix1 (⟨j.val, by omega⟩ : Fin 4096)) = v0 (ix1 j)
    ∧ concatenate S4096 0 [⟨S1024, v0⟩, ⟨S1024, v1⟩, ⟨S1024, v2⟩, ⟨S1024, v3⟩] concatenates_S1024_S1024_S1024_S1024_S4096_d0 (ix1 (⟨1024 + j.val, by omega⟩ : Fin 4096)) = v1 (ix1 j)
    ∧ concatenate S4096 0 [⟨S1024, v0⟩, ⟨S1024, v1⟩, ⟨S1024, v2⟩, ⟨S1024, v3⟩] concatenates_S1024_S1024_S1024_S1024_S4096_d0 (ix1 (⟨2048 + j.val, by omega⟩ : Fin 4096)) = v2 (ix1 j)
    ∧ concatenate S4096 0 [⟨S1024, v0⟩, ⟨S1024, v1⟩, ⟨S1024, v2⟩, ⟨S1024, v3⟩] concatenates_S1024_S1024_S1024_S1024_S4096_d0 (ix1 (⟨3072 + j.val, by omega⟩ : Fin 4096)) = v3 (ix1 j) := by
  refine ⟨?_, ?_, ?_, ?_⟩
  · refine concatenate_apply_piece (t := S4096) (0 : Fin 1) [⟨S1024, v0⟩, ⟨S1024, v1⟩, ⟨S1024, v2⟩, ⟨S1024, v3⟩]
      concatenates_S1024_S1024_S1024_S1024_S4096_d0 _ 0 (by show (0 : ℕ) < 4; decide) S1024 v0 rfl rfl 0 rfl (ix1 j) ?_ ?_
    · intro b hb
      exact absurd (Subsingleton.elim _ _) hb
    · exact Nat.zero_add _
  · refine concatenate_apply_piece (t := S4096) (0 : Fin 1) [⟨S1024, v0⟩, ⟨S1024, v1⟩, ⟨S1024, v2⟩, ⟨S1024, v3⟩]
      concatenates_S1024_S1024_S1024_S1024_S4096_d0 _ 1 (by show (1 : ℕ) < 4; decide) S1024 v1 rfl rfl 1024 rfl (ix1 j) ?_ ?_
    · intro b hb
      exact absurd (Subsingleton.elim _ _) hb
    · rfl
  · refine concatenate_apply_piece (t := S4096) (0 : Fin 1) [⟨S1024, v0⟩, ⟨S1024, v1⟩, ⟨S1024, v2⟩, ⟨S1024, v3⟩]
      concatenates_S1024_S1024_S1024_S1024_S4096_d0 _ 2 (by show (2 : ℕ) < 4; decide) S1024 v2 rfl rfl 2048 rfl (ix1 j) ?_ ?_
    · intro b hb
      exact absurd (Subsingleton.elim _ _) hb
    · rfl
  · refine concatenate_apply_piece (t := S4096) (0 : Fin 1) [⟨S1024, v0⟩, ⟨S1024, v1⟩, ⟨S1024, v2⟩, ⟨S1024, v3⟩]
      concatenates_S1024_S1024_S1024_S1024_S4096_d0 _ 3 (by show (3 : ℕ) < 4; decide) S1024 v3 rfl rfl 3072 rfl (ix1 j) ?_ ?_
    · intro b hb
      exact absurd (Subsingleton.elim _ _) hb
    · rfl

end Joined

/-! ## The packed gate weights -/

/-- Rows `off` to `off + 1023` of a gate's transposed weight matrix: entry `(k, j)` is the weight at row `j`, column
    `off + k`. -/
theorem piece_apply (off : ℕ) (hoff : off + 1024 ≤ 3072) (hS : S3072x1024.Slices ![off, 0] S1024x1024)
    (W : FVec Ideal S1024x3072 .f32) (k j : Fin 1024) :
    extractStridedSlice S1024x1024 ![off, 0] (transpose S3072x1024 [1, 0] W transposes_S1024x3072_S3072x1024_1_0) hS (ix2 k j)
      = W (ix2 j (col off hoff k)) :=
  (slice2_axis0_apply off _ hS k j (col off hoff k) rfl).trans
    (transpose_ix2_apply W transposes_S1024x3072_S3072x1024_1_0 (col off hoff k) j)

/-- The four gates' pieces for the column range from `off`, joined and changed to the kernel's input format, hold the
    range gate after gate. -/
theorem packs_term (off : ℕ) (hoff : off + 1024 ≤ 3072) (hS : S3072x1024.Slices ![off, 0] S1024x1024)
    (W4 W6 W8 W10 : FVec Ideal S1024x3072 .f32) :
    Packs off hoff (truncf .bf16 (concatenate S1024x4096 1 [⟨S1024x1024, extractStridedSlice S1024x1024 ![off, 0] (transpose S3072x1024 [1, 0] W4 transposes_S1024x3072_S3072x1024_1_0) hS⟩,
      ⟨S1024x1024, extractStridedSlice S1024x1024 ![off, 0] (transpose S3072x1024 [1, 0] W6 transposes_S1024x3072_S3072x1024_1_0) hS⟩,
      ⟨S1024x1024, extractStridedSlice S1024x1024 ![off, 0] (transpose S3072x1024 [1, 0] W8 transposes_S1024x3072_S3072x1024_1_0) hS⟩,
      ⟨S1024x1024, extractStridedSlice S1024x1024 ![off, 0] (transpose S3072x1024 [1, 0] W10 transposes_S1024x3072_S3072x1024_1_0) hS⟩]
      concatenates_S1024x1024_S1024x1024_S1024x1024_S1024x1024_S1024x4096_d1) bitsLt_bf16_f32) W4 W6 W8 W10 := by
  intro k j
  have h := joined_cols (extractStridedSlice S1024x1024 ![off, 0] (transpose S3072x1024 [1, 0] W4 transposes_S1024x3072_S3072x1024_1_0) hS)
    (extractStridedSlice S1024x1024 ![off, 0] (transpose S3072x1024 [1, 0] W6 transposes_S1024x3072_S3072x1024_1_0) hS)
    (extractStridedSlice S1024x1024 ![off, 0] (transpose S3072x1024 [1, 0] W8 transposes_S1024x3072_S3072x1024_1_0) hS)
    (extractStridedSlice S1024x1024 ![off, 0] (transpose S3072x1024 [1, 0] W10 transposes_S1024x3072_S3072x1024_1_0) hS) k j
  exact ⟨h.1.trans (piece_apply off hoff hS W4 k j), h.2.1.trans (piece_apply off hoff hS W6 k j),
    h.2.2.1.trans (piece_apply off hoff hS W8 k j), h.2.2.2.trans (piece_apply off hoff hS W10 k j)⟩

variable (W4 W6 W8 W10 : FVec Ideal S1024x3072 .f32)

/-- The array packed from the weight columns 0 to 1023 (the embedded input's). -/
theorem packs_term0 :
    Packs 0 (by omega) (truncf .bf16 (concatenate S1024x4096 1 [⟨S1024x1024, extractStridedSlice S1024x1024 ![0, 0] (transpose S3072x1024 [1, 0] W4 transposes_S1024x3072_S3072x1024_1_0) slices_S3072x1024_S1024x1024_0_0⟩,
      ⟨S1024x1024, extractStridedSlice S1024x1024 ![0, 0] (transpose S3072x1024 [1, 0] W6 transposes_S1024x3072_S3072x1024_1_0) slices_S3072x1024_S1024x1024_0_0⟩,
      ⟨S1024x1024, extractStridedSlice S1024x1024 ![0, 0] (transpose S3072x1024 [1, 0] W8 transposes_S1024x3072_S3072x1024_1_0) slices_S3072x1024_S1024x1024_0_0⟩,
      ⟨S1024x1024, extractStridedSlice S1024x1024 ![0, 0] (transpose S3072x1024 [1, 0] W10 transposes_S1024x3072_S3072x1024_1_0) slices_S3072x1024_S1024x1024_0_0⟩]
      concatenates_S1024x1024_S1024x1024_S1024x1024_S1024x1024_S1024x4096_d1) bitsLt_bf16_f32) W4 W6 W8 W10 :=
  packs_term 0 (by omega) slices_S3072x1024_S1024x1024_0_0 W4 W6 W8 W10

/-- The array packed from the weight columns 1024 to 2047 (the hidden state's). -/
theorem packs_term1024 :
    Packs 1024 (by omega) (truncf .bf16 (concatenate S1024x4096 1 [⟨S1024x1024, extractStridedSlice S1024x1024 ![1024, 0] (transpose S3072x1024 [1, 0] W4 transposes_S1024x3072_S3072x1024_1_0) slices_S3072x1024_S1024x1024_1024_0⟩,
      ⟨S1024x1024, extractStridedSlice S1024x1024 ![1024, 0] (transpose S3072x1024 [1, 0] W6 transposes_S1024x3072_S3072x1024_1_0) slices_S3072x1024_S1024x1024_1024_0⟩,
      ⟨S1024x1024, extractStridedSlice S1024x1024 ![1024, 0] (transpose S3072x1024 [1, 0] W8 transposes_S1024x3072_S3072x1024_1_0) slices_S3072x1024_S1024x1024_1024_0⟩,
      ⟨S1024x1024, extractStridedSlice S1024x1024 ![1024, 0] (transpose S3072x1024 [1, 0] W10 transposes_S1024x3072_S3072x1024_1_0) slices_S3072x1024_S1024x1024_1024_0⟩]
      concatenates_S1024x1024_S1024x1024_S1024x1024_S1024x1024_S1024x4096_d1) bitsLt_bf16_f32) W4 W6 W8 W10 :=
  packs_term 1024 (by omega) slices_S3072x1024_S1024x1024_1024_0 W4 W6 W8 W10

/-- The array packed from the weight columns 2048 to 3071 (the context vector's). -/
theorem packs_term2048 :
    Packs 2048 (by omega) (truncf .bf16 (concatenate S1024x4096 1 [⟨S1024x1024, extractStridedSlice S1024x1024 ![2048, 0] (transpose S3072x1024 [1, 0] W4 transposes_S1024x3072_S3072x1024_1_0) slices_S3072x1024_S1024x1024_2048_0⟩,
      ⟨S1024x1024, extractStridedSlice S1024x1024 ![2048, 0] (transpose S3072x1024 [1, 0] W6 transposes_S1024x3072_S3072x1024_1_0) slices_S3072x1024_S1024x1024_2048_0⟩,
      ⟨S1024x1024, extractStridedSlice S1024x1024 ![2048, 0] (transpose S3072x1024 [1, 0] W8 transposes_S1024x3072_S3072x1024_1_0) slices_S3072x1024_S1024x1024_2048_0⟩,
      ⟨S1024x1024, extractStridedSlice S1024x1024 ![2048, 0] (transpose S3072x1024 [1, 0] W10 transposes_S1024x3072_S3072x1024_1_0) slices_S3072x1024_S1024x1024_2048_0⟩]
      concatenates_S1024x1024_S1024x1024_S1024x1024_S1024x1024_S1024x4096_d1) bitsLt_bf16_f32) W4 W6 W8 W10 :=
  packs_term 2048 (by omega) slices_S3072x1024_S1024x1024_2048_0 W4 W6 W8 W10

/-! ## The biases and the projections -/

/-- The four gates' biases joined end to end and read as one row. -/
theorem bias_term (b5 b7 b9 b11 : FVec Ideal S1024 .f32) :
    PacksBias (shapeCast S1x4096 (concatenate S4096 0 [⟨S1024, b5⟩, ⟨S1024, b7⟩, ⟨S1024, b9⟩, ⟨S1024, b11⟩]
      concatenates_S1024_S1024_S1024_S1024_S4096_d0) shapeCasts_S4096_S1x4096) b5 b7 b9 b11 := by
  intro j
  have h := joined_vec b5 b7 b9 b11 j
  exact ⟨(shapeCast_a_1a_apply _ shapeCasts_S4096_S1x4096 0 _).trans h.1,
    (shapeCast_a_1a_apply _ shapeCasts_S4096_S1x4096 0 _).trans h.2.1,
    (shapeCast_a_1a_apply _ shapeCasts_S4096_S1x4096 0 _).trans h.2.2.1,
    (shapeCast_a_1a_apply _ shapeCasts_S4096_S1x4096 0 _).trans h.2.2.2⟩

/-- A projection matrix transposed and changed to the kernel's input format. -/
theorem transposed_term (W : FVec Ideal S1024x1024 .f32) :
    Transposed (truncf .bf16 (transpose S1024x1024 [1, 0] W transposes_S1024x1024_S1024x1024_1_0) bitsLt_bf16_f32) W :=
  fun l k => transpose_ix2_apply W transposes_S1024x1024_S1024x1024_1_0 l k

/-- A projection bias read as one row. -/
theorem row_term (b : FVec Ideal S1024 .f32) : AsRow (shapeCast S1x1024 b shapeCasts_S1024_S1x1024) b :=
  fun k => shapeCast_a_1a_apply b shapeCasts_S1024_S1x1024 0 k

end Cert.KernelIdeal.PrefixTerms

end
-- ==== Proof.Prefix.lean ====
/-
  What the host hands the kernel: the ten arrays the host prepares before the kernel runs, as layouts of the launched
  weights and biases.

  Each prepared array is written once, by a short chain of layout operations (transposes, row slices, joins along an
  axis, changes of number format, reshapes) that starts at argument arrays no operation writes. Reading the chain back
  from the prepared array to the arguments gives the array as one term over the launch contents; what that term holds,
  index by index, is the layout the kernel's blocks are described by.
-/
import proofs.«164272_j80831284510999_2_alg».proof.Proof.EntryIdeal
import proofs.«164272_j80831284510999_2_alg».proof.Proof.Layout
import proofs.«164272_j80831284510999_2_alg».proof.Proof.PrefixTerms
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Prefix

open Cert.KernelIdeal Cert.KernelIdeal.Gen Cert.KernelIdeal.Step Cert.KernelIdeal.Block
open Idealize.ShloMosaic Idealize.ShloMosaic.TcCoe Idealize.SL.Sem Idealize.ShloMosaic.StableHlo Idealize.ShloMosaic.ValueIdx

/-! ## A join of four operands, each read where it is -/

/-- Four square pieces side by side along 4096 columns. -/
def cols4 (p0 p1 p2 p3 : (⟨S1024x1024, .f32⟩ : BufTy).Contents (Elt Ideal)) : (⟨S1024x4096, .f32⟩ : BufTy).Contents (Elt Ideal) :=
  concatenate S1024x4096 1 [⟨S1024x1024, p0⟩, ⟨S1024x1024, p1⟩, ⟨S1024x1024, p2⟩, ⟨S1024x1024, p3⟩] concatenates_S1024x1024_S1024x1024_S1024x1024_S1024x1024_S1024x4096_d1

/-- Four vectors end to end. -/
def vec4 (p0 p1 p2 p3 : (⟨S1024, .f32⟩ : BufTy).Contents (Elt Ideal)) : (⟨S4096, .f32⟩ : BufTy).Contents (Elt Ideal) :=
  concatenate S4096 0 [⟨S1024, p0⟩, ⟨S1024, p1⟩, ⟨S1024, p2⟩, ⟨S1024, p3⟩] concatenates_S1024_S1024_S1024_S1024_S4096_d0

/-- The join written to `main_v8`: its four operands side by side, each read where it is. -/
theorem join_v8 (hxs hy) (F : Valuation τ sig (Elt Ideal)) :
    (StableHlo.nary (τ := τ) ![main_v4, main_v5, main_v6, main_v7] main_v8
        (fun u => concatenate S1024x4096 1 [⟨S1024x1024, u 0⟩, ⟨S1024x1024, u 1⟩, ⟨S1024x1024, u 2⟩, ⟨S1024x1024, u 3⟩]
          concatenates_S1024x1024_S1024x1024_S1024x1024_S1024x1024_S1024x4096_d1) hxs hy).result F (no_index (Proc.devRef .tc main_v8))
      = cols4 (F (Proc.devRef .tc main_v4)) (F (Proc.devRef .tc main_v5)) (F (Proc.devRef .tc main_v6))
          (F (Proc.devRef .tc main_v7)) :=
  (nary4_result _ hxs hy F).trans rfl

/-- The join written to `main_v14`: its four operands side by side, each read where it is. -/
theorem join_v14 (hxs hy) (F : Valuation τ sig (Elt Ideal)) :
    (StableHlo.nary (τ := τ) ![main_v10, main_v11, main_v12, main_v13] main_v14
        (fun u => concatenate S1024x4096 1 [⟨S1024x1024, u 0⟩, ⟨S1024x1024, u 1⟩, ⟨S1024x1024, u 2⟩, ⟨S1024x1024, u 3⟩]
          concatenates_S1024x1024_S1024x1024_S1024x1024_S1024x1024_S1024x4096_d1) hxs hy).result F (no_index (Proc.devRef .tc main_v14))
      = cols4 (F (Proc.devRef .tc main_v10)) (F (Proc.devRef .tc main_v11)) (F (Proc.devRef .tc main_v12))
          (F (Proc.devRef .tc main_v13)) :=
  (nary4_result _ hxs hy F).trans rfl

/-- The join written to `main_v20`: its four operands side by side, each read where it is. -/
theorem join_v20 (hxs hy) (F : Valuation τ sig (Elt Ideal)) :
    (StableHlo.nary (τ := τ) ![main_v16, main_v17, main_v18, main_v19] main_v20
        (fun u => concatenate S1024x4096 1 [⟨S1024x1024, u 0⟩, ⟨S1024x1024, u 1⟩, ⟨S1024x1024, u 2⟩, ⟨S1024x1024, u 3⟩]
          concatenates_S1024x1024_S1024x1024_S1024x1024_S1024x1024_S1024x4096_d1) hxs hy).result F (no_index (Proc.devRef .tc main_v20))
      = cols4 (F (Proc.devRef .tc main_v16)) (F (Proc.devRef .tc main_v17)) (F (Proc.devRef .tc main_v18))
          (F (Proc.devRef .tc main_v19)) :=
  (nary4_result _ hxs hy F).trans rfl

/-- The join written to `main_v22`: the four bias vectors end to end, each read where it is. -/
theorem join_v22 (hxs hy) (F : Valuation τ sig (Elt Ideal)) :
    (StableHlo.nary (τ := τ) ![main_arg5, main_arg7, main_arg9, main_arg11] main_v22
        (fun u => concatenate S4096 0 [⟨S1024, u 0⟩, ⟨S1024, u 1⟩, ⟨S1024, u 2⟩, ⟨S1024, u 3⟩]
          concatenates_S1024_S1024_S1024_S1024_S4096_d0) hxs hy).result F (no_index (Proc.devRef .tc main_v22))
      = vec4 (F (Proc.devRef .tc main_arg5)) (F (Proc.devRef .tc main_arg7)) (F (Proc.devRef .tc main_arg9))
          (F (Proc.devRef .tc main_arg11)) :=
  (nary4_result _ hxs hy F).trans rfl

/-! ## The prepared arrays as terms over the launch contents -/

variable (m : (ℓ : Loc nD τ sig) → Buf (Elt Ideal) ℓ) (c : Dev nD)

/-- The array packed from the weight columns 0 to 1023 (the embedded input's), as the host's operations on the launched weights. -/
theorem v9_eq :
    (V m c main_v9 : S1024x4096.Idx → EReal)
      = (truncf (F := Ideal) .bf16 (concatenate S1024x4096 1
        [⟨S1024x1024, extractStridedSlice S1024x1024 ![0, 0] (transpose S3072x1024 [1, 0] (m ((c : Thread nD τ).loc main_arg4)) transposes_S1024x3072_S3072x1024_1_0) slices_S3072x1024_S1024x1024_0_0⟩,
         ⟨S1024x1024, extractStridedSlice S1024x1024 ![0, 0] (transpose S3072x1024 [1, 0] (m ((c : Thread nD τ).loc main_arg6)) transposes_S1024x3072_S3072x1024_1_0) slices_S3072x1024_S1024x1024_0_0⟩,
         ⟨S1024x1024, extractStridedSlice S1024x1024 ![0, 0] (transpose S3072x1024 [1, 0] (m ((c : Thread nD τ).loc main_arg8)) transposes_S1024x3072_S3072x1024_1_0) slices_S3072x1024_S1024x1024_0_0⟩,
         ⟨S1024x1024, extractStridedSlice S1024x1024 ![0, 0] (transpose S3072x1024 [1, 0] (m ((c : Thread nD τ).loc main_arg10)) transposes_S1024x3072_S3072x1024_1_0) slices_S3072x1024_S1024x1024_0_0⟩]
        concatenates_S1024x1024_S1024x1024_S1024x1024_S1024x1024_S1024x4096_d1) bitsLt_bf16_f32) := by
  dsimp only [V, hostOps0]
  simp (disch := decide) only [after_cons, after_nil, unary_result', reshape_result', join_v8, join_v14, join_v20, join_v22,
    unary_result_ne', reshape_result_ne', nary_result_ne']
  rfl

/-- The array packed from the weight columns 1024 to 2047 (the hidden state's), as the host's operations on the launched weights. -/
theorem v15_eq :
    (V m c main_v15 : S1024x4096.Idx → EReal)
      = (truncf (F := Ideal) .bf16 (concatenate S1024x4096 1
        [⟨S1024x1024, extractStridedSlice S1024x1024 ![1024, 0] (transpose S3072x1024 [1, 0] (m ((c : Thread nD τ).loc main_arg4)) transposes_S1024x3072_S3072x1024_1_0) slices_S3072x1024_S1024x1024_1024_0⟩,
         ⟨S1024x1024, extractStridedSlice S1024x1024 ![1024, 0] (transpose S3072x1024 [1, 0] (m ((c : Thread nD τ).loc main_arg6)) transposes_S1024x3072_S3072x1024_1_0) slices_S3072x1024_S1024x1024_1024_0⟩,
         ⟨S1024x1024, extractStridedSlice S1024x1024 ![1024, 0] (transpose S3072x1024 [1, 0] (m ((c : Thread nD τ).loc main_arg8)) transposes_S1024x3072_S3072x1024_1_0) slices_S3072x1024_S1024x1024_1024_0⟩,
         ⟨S1024x1024, extractStridedSlice S1024x1024 ![1024, 0] (transpose S3072x1024 [1, 0] (m ((c : Thread nD τ).loc main_arg10)) transposes_S1024x3072_S3072x1024_1_0) slices_S3072x1024_S1024x1024_1024_0⟩]
        concatenates_S1024x1024_S1024x1024_S1024x1024_S1024x1024_S1024x4096_d1) bitsLt_bf16_f32) := by
  dsimp only [V, hostOps0]
  simp (disch := decide) only [after_cons, after_nil, unary_result', reshape_result', join_v8, join_v14, join_v20, join_v22,
    unary_result_ne', reshape_result_ne', nary_result_ne']
  rfl

/-- The array packed from the weight columns 2048 to 3071 (the context vector's), as the host's operations on the launched weights. -/
theorem v21_eq :
    (V m c main_v21 : S1024x4096.Idx → EReal)
      = (truncf (F := Ideal) .bf16 (concatenate S1024x4096 1
        [⟨S1024x1024, extractStridedSlice S1024x1024 ![2048, 0] (transpose S3072x1024 [1, 0] (m ((c : Thread nD τ).loc main_arg4)) transposes_S1024x3072_S3072x1024_1_0) slices_S3072x1024_S1024x1024_2048_0⟩,
         ⟨S1024x1024, extractStridedSlice S1024x1024 ![2048, 0] (transpose S3072x1024 [1, 0] (m ((c : Thread nD τ).loc main_arg6)) transposes_S1024x3072_S3072x1024_1_0) slices_S3072x1024_S1024x1024_2048_0⟩,
         ⟨S1024x1024, extractStridedSlice S1024x1024 ![2048, 0] (transpose S3072x1024 [1, 0] (m ((c : Thread nD τ).loc main_arg8)) transposes_S1024x3072_S3072x1024_1_0) slices_S3072x1024_S1024x1024_2048_0⟩,
         ⟨S1024x1024, extractStridedSlice S1024x1024 ![2048, 0] (transpose S3072x1024 [1, 0] (m ((c : Thread nD τ).loc main_arg10)) transposes_S1024x3072_S3072x1024_1_0) slices_S3072x1024_S1024x1024_2048_0⟩]
        concatenates_S1024x1024_S1024x1024_S1024x1024_S1024x1024_S1024x4096_d1) bitsLt_bf16_f32) := by
  dsimp only [V, hostOps0]
  simp (disch := decide) only [after_cons, after_nil, unary_result', reshape_result', join_v8, join_v14, join_v20, join_v22,
    unary_result_ne', reshape_result_ne', nary_result_ne']
  rfl

/-- The four gates' biases joined end to end and read as one row. -/
theorem v23_eq :
    (V m c main_v23 : S1x4096.Idx → EReal)
      = shapeCast S1x4096 (concatenate S4096 0 [⟨S1024, (m ((c : Thread nD τ).loc main_arg5))⟩, ⟨S1024, (m ((c : Thread nD τ).loc main_arg7))⟩,
          ⟨S1024, (m ((c : Thread nD τ).loc main_arg9))⟩, ⟨S1024, (m ((c : Thread nD τ).loc main_arg11))⟩] concatenates_S1024_S1024_S1024_S1024_S4096_d0) shapeCasts_S4096_S1x4096 := by
  dsimp only [V, hostOps0]
  simp (disch := decide) only [after_cons, after_nil, unary_result', reshape_result', join_v8, join_v14, join_v20, join_v22,
    unary_result_ne', reshape_result_ne', nary_result_ne']
  rfl

/-- The hidden state's projection matrix, transposed by the host. -/
theorem v25_eq :
    (V m c main_v25 : S1024x1024.Idx → EReal)
      = truncf (F := Ideal) .bf16 (transpose S1024x1024 [1, 0] (m ((c : Thread nD τ).loc main_arg14)) transposes_S1024x1024_S1024x1024_1_0) bitsLt_bf16_f32 := by
  dsimp only [V, hostOps0]
  simp (disch := decide) only [after_cons, after_nil, unary_result', reshape_result', join_v8, join_v14, join_v20, join_v22,
    unary_result_ne', reshape_result_ne', nary_result_ne']

/-- The context vector's projection matrix, transposed by the host. -/
theorem v27_eq :
    (V m c main_v27 : S1024x1024.Idx → EReal)
      = truncf (F := Ideal) .bf16 (transpose S1024x1024 [1, 0] (m ((c : Thread nD τ).loc main_arg12)) transposes_S1024x1024_S1024x1024_1_0) bitsLt_bf16_f32 := by
  dsimp only [V, hostOps0]
  simp (disch := decide) only [after_cons, after_nil, unary_result', reshape_result', join_v8, join_v14, join_v20, join_v22,
    unary_result_ne', reshape_result_ne', nary_result_ne']

/-- The residual's projection matrix, transposed by the host. -/
theorem v29_eq :
    (V m c main_v29 : S1024x1024.Idx → EReal)
      = truncf (F := Ideal) .bf16 (transpose S1024x1024 [1, 0] (m ((c : Thread nD τ).loc main_arg16)) transposes_S1024x1024_S1024x1024_1_0) bitsLt_bf16_f32 := by
  dsimp only [V, hostOps0]
  simp (disch := decide) only [after_cons, after_nil, unary_result', reshape_result', join_v8, join_v14, join_v20, join_v22,
    unary_result_ne', reshape_result_ne', nary_result_ne']

/-- The hidden projection's bias, read as one row by the host. -/
theorem v30_eq :
    (V m c main_v30 : S1x1024.Idx → EReal) = shapeCast S1x1024 (m ((c : Thread nD τ).loc main_arg15)) shapeCasts_S1024_S1x1024 := by
  dsimp only [V, hostOps0]
  simp (disch := decide) only [after_cons, after_nil, unary_result', reshape_result', join_v8, join_v14, join_v20, join_v22,
    unary_result_ne', reshape_result_ne', nary_result_ne']
  rfl

/-- The context projection's bias, read as one row by the host. -/
theorem v31_eq :
    (V m c main_v31 : S1x1024.Idx → EReal) = shapeCast S1x1024 (m ((c : Thread nD τ).loc main_arg13)) shapeCasts_S1024_S1x1024 := by
  dsimp only [V, hostOps0]
  simp (disch := decide) only [after_cons, after_nil, unary_result', reshape_result', join_v8, join_v14, join_v20, join_v22,
    unary_result_ne', reshape_result_ne', nary_result_ne']
  rfl

/-- The prediction's bias, read as one row by the host. -/
theorem v32_eq :
    (V m c main_v32 : S1x1024.Idx → EReal) = shapeCast S1x1024 (m ((c : Thread nD τ).loc main_arg17)) shapeCasts_S1024_S1x1024 := by
  dsimp only [V, hostOps0]
  simp (disch := decide) only [after_cons, after_nil, unary_result', reshape_result', join_v8, join_v14, join_v20, join_v22,
    unary_result_ne', reshape_result_ne', nary_result_ne']
  rfl

/-! ## What the prepared arrays hold -/

/-- The first packed array holds columns 0 to 1023 of the four gates' weight rows. -/
theorem packs_e : Packs 0 (by omega) (V m c main_v9) (m ((c : Thread nD τ).loc main_arg4)) (m ((c : Thread nD τ).loc main_arg6)) (m ((c : Thread nD τ).loc main_arg8)) (m ((c : Thread nD τ).loc main_arg10)) := by
  rw [v9_eq]
  exact PrefixTerms.packs_term0 _ _ _ _

/-- The second packed array holds columns 1024 to 2047 of the four gates' weight rows. -/
theorem packs_h : Packs 1024 (by omega) (V m c main_v15) (m ((c : Thread nD τ).loc main_arg4)) (m ((c : Thread nD τ).loc main_arg6)) (m ((c : Thread nD τ).loc main_arg8)) (m ((c : Thread nD τ).loc main_arg10)) := by
  rw [v15_eq]
  exact PrefixTerms.packs_term1024 _ _ _ _

/-- The third packed array holds columns 2048 to 3071 of the four gates' weight rows. -/
theorem packs_c : Packs 2048 (by omega) (V m c main_v21) (m ((c : Thread nD τ).loc main_arg4)) (m ((c : Thread nD τ).loc main_arg6)) (m ((c : Thread nD τ).loc main_arg8)) (m ((c : Thread nD τ).loc main_arg10)) := by
  rw [v21_eq]
  exact PrefixTerms.packs_term2048 _ _ _ _

/-- The bias row holds the four gates' biases end to end. -/
theorem packs_bias : PacksBias (V m c main_v23) (m ((c : Thread nD τ).loc main_arg5)) (m ((c : Thread nD τ).loc main_arg7)) (m ((c : Thread nD τ).loc main_arg9)) (m ((c : Thread nD τ).loc main_arg11)) := by
  rw [v23_eq]
  exact PrefixTerms.bias_term _ _ _ _

/-- The hidden state's projection matrix arrives transposed. -/
theorem transposed_h : Transposed (V m c main_v25) (m ((c : Thread nD τ).loc main_arg14)) := by
  rw [v25_eq]
  exact PrefixTerms.transposed_term _

/-- The context vector's projection matrix arrives transposed. -/
theorem transposed_c : Transposed (V m c main_v27) (m ((c : Thread nD τ).loc main_arg12)) := by
  rw [v27_eq]
  exact PrefixTerms.transposed_term _

/-- The residual's projection matrix arrives transposed. -/
theorem transposed_p : Transposed (V m c main_v29) (m ((c : Thread nD τ).loc main_arg16)) := by
  rw [v29_eq]
  exact PrefixTerms.transposed_term _

/-- The hidden projection's bias arrives as one row. -/
theorem row_bh : AsRow (V m c main_v30) (m ((c : Thread nD τ).loc main_arg15)) := by
  rw [v30_eq]
  exact PrefixTerms.row_term _

/-- The context projection's bias arrives as one row. -/
theorem row_bc : AsRow (V m c main_v31) (m ((c : Thread nD τ).loc main_arg13)) := by
  rw [v31_eq]
  exact PrefixTerms.row_term _

/-- The prediction's bias arrives as one row. -/
theorem row_bp : AsRow (V m c main_v32) (m ((c : Thread nD τ).loc main_arg17)) := by
  rw [v32_eq]
  exact PrefixTerms.row_term _

end Cert.KernelIdeal.Prefix

end
-- ==== Proof.Cover.lean ====
/-
  The blocks of the three output windows cover their arrays.

  The grid has 32 points. Each output array has 4096 rows of 1024 entries and is written back in blocks of 128 rows:
  point `t` writes rows `128 t` to `128 t + 127`, all columns. So the entry at row `r` lies in the block of the point
  `r / 128`. The row-blocked inputs move with the outputs (block `t` at point `t`), and the ten resident inputs stay at
  block `(0, 0)`; these relations between the index maps are decided once over the grid.
-/
import proofs.«164272_j80831284510999_2_alg».proof.Proof.Gen.KernelIdeal.Points
import proofs.«164272_j80831284510999_2_alg».proof.Proof.Gen.KernelIdeal.Launch
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-! ## The index maps over the grid -/

/-- Each output window's block at point `t` is block `(t, 0)`. -/
theorem idx_out : ∀ t : Fin cfg0.N,
    (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- Each row-blocked input window's block at point `t` is block `(t, 0)`. -/
theorem idx_in : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

/-- Each resident input window's block at every point is block `(0, 0)`. -/
theorem idx_whole : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-! ## Membership in a block, and the cover -/

/-- An index of output array 0 is in point `t`'s block iff each coordinate is in the block's range on its axis. -/
theorem mem_blk14 (t : Fin cfg0.N) (i : S4096x1024.Idx) :
    i ∈ ((cfg0.win 14).blk t).view.set ↔ ∀ a : Fin 2, win0_14.index t a * S128x1024.size a ≤ (i a).val
      ∧ (i a).val < win0_14.index t a * S128x1024.size a + S128x1024.size a := by
  show i ∈ ((View.whole main_v33_0).slice (win0_14.rect t)).set ↔ _
  rw [View.set_slice_whole, Rect.mem_set_unit]
  exact Iff.rfl

/-- Every index of output array 0 is in the block of the point `row / 128`, which is written back. -/
theorem cover14 : ∀ i : S4096x1024.Idx,
    ∃ t : Fin cfg0.N, (cfg0.win 14).flush t = true ∧ i ∈ ((cfg0.win 14).blk t).view.set := by
  intro i
  have hi0 : (i 0).val < 4096 := (i 0).isLt
  have hi1 : (i 1).val < 1024 := (i 1).isLt
  obtain ⟨t, ht⟩ : ∃ t : Fin cfg0.N, t.val = (i 0).val / 128 :=
    ⟨⟨(i 0).val / 128, by show (i 0).val / 128 < grid0.N; rw [N_0]; omega⟩, rfl⟩
  refine ⟨t, flush0_14 t, ?_⟩
  rw [mem_blk14]
  obtain ⟨⟨e0, e1⟩, -, -⟩ := idx_out t
  intro a
  match a with
  | ⟨0, _⟩ =>
    show win0_14.index t (0 : Fin 2) * 128 ≤ (i 0).val ∧ (i 0).val < win0_14.index t (0 : Fin 2) * 128 + 128
    omega
  | ⟨1, _⟩ =>
    show win0_14.index t (1 : Fin 2) * 1024 ≤ (i 1).val ∧ (i 1).val < win0_14.index t (1 : Fin 2) * 1024 + 1024
    omega

/-- The same, with the index typed as the array's own (the form the whole-array conclusion asks for). -/
theorem cover14_at (c : Dev nD) : ∀ i : ((cfg0.win 14).arr.view.loc (c.tc : Thread nD τ)).2.ty.Idx,
    ∃ t : Fin cfg0.N, (cfg0.win 14).flush t = true ∧ i ∈ ((cfg0.win 14).blk t).view.set :=
  cover14

/-- An index of output array 1 is in point `t`'s block iff each coordinate is in the block's range on its axis. -/
theorem mem_blk15 (t : Fin cfg0.N) (i : S4096x1024.Idx) :
    i ∈ ((cfg0.win 15).blk t).view.set ↔ ∀ a : Fin 2, win0_15.index t a * S128x1024.size a ≤ (i a).val
      ∧ (i a).val < win0_15.index t a * S128x1024.size a + S128x1024.size a := by
  show i ∈ ((View.whole main_v33_1).slice (win0_15.rect t)).set ↔ _
  rw [View.set_slice_whole, Rect.mem_set_unit]
  exact Iff.rfl

/-- Every index of output array 1 is in the block of the point `row / 128`, which is written back. -/
theorem cover15 : ∀ i : S4096x1024.Idx,
    ∃ t : Fin cfg0.N, (cfg0.win 15).flush t = true ∧ i ∈ ((cfg0.win 15).blk t).view.set := by
  intro i
  have hi0 : (i 0).val < 4096 := (i 0).isLt
  have hi1 : (i 1).val < 1024 := (i 1).isLt
  obtain ⟨t, ht⟩ : ∃ t : Fin cfg0.N, t.val = (i 0).val / 128 :=
    ⟨⟨(i 0).val / 128, by show (i 0).val / 128 < grid0.N; rw [N_0]; omega⟩, rfl⟩
  refine ⟨t, flush0_15 t, ?_⟩
  rw [mem_blk15]
  obtain ⟨-, ⟨e0, e1⟩, -⟩ := idx_out t
  intro a
  match a with
  | ⟨0, _⟩ =>
    show win0_15.index t (0 : Fin 2) * 128 ≤ (i 0).val ∧ (i 0).val < win0_15.index t (0 : Fin 2) * 128 + 128
    omega
  | ⟨1, _⟩ =>
    show win0_15.index t (1 : Fin 2) * 1024 ≤ (i 1).val ∧ (i 1).val < win0_15.index t (1 : Fin 2) * 1024 + 1024
    omega

/-- The same, with the index typed as the array's own (the form the whole-array conclusion asks for). -/
theorem cover15_at (c : Dev nD) : ∀ i : ((cfg0.win 15).arr.view.loc (c.tc : Thread nD τ)).2.ty.Idx,
    ∃ t : Fin cfg0.N, (cfg0.win 15).flush t = true ∧ i ∈ ((cfg0.win 15).blk t).view.set :=
  cover15

/-- An index of output array 2 is in point `t`'s block iff each coordinate is in the block's range on its axis. -/
theorem mem_blk16 (t : Fin cfg0.N) (i : S4096x1024.Idx) :
    i ∈ ((cfg0.win 16).blk t).view.set ↔ ∀ a : Fin 2, win0_16.index t a * S128x1024.size a ≤ (i a).val
      ∧ (i a).val < win0_16.index t a * S128x1024.size a + S128x1024.size a := by
  show i ∈ ((View.whole main_v33_2).slice (win0_16.rect t)).set ↔ _
  rw [View.set_slice_whole, Rect.mem_set_unit]
  exact Iff.rfl

/-- Every index of output array 2 is in the block of the point `row / 128`, which is written back. -/
theorem cover16 : ∀ i : S4096x1024.Idx,
    ∃ t : Fin cfg0.N, (cfg0.win 16).flush t = true ∧ i ∈ ((cfg0.win 16).blk t).view.set := by
  intro i
  have hi0 : (i 0).val < 4096 := (i 0).isLt
  have hi1 : (i 1).val < 1024 := (i 1).isLt
  obtain ⟨t, ht⟩ : ∃ t : Fin cfg0.N, t.val = (i 0).val / 128 :=
    ⟨⟨(i 0).val / 128, by show (i 0).val / 128 < grid0.N; rw [N_0]; omega⟩, rfl⟩
  refine ⟨t, flush0_16 t, ?_⟩
  rw [mem_blk16]
  obtain ⟨-, -, ⟨e0, e1⟩⟩ := idx_out t
  intro a
  match a with
  | ⟨0, _⟩ =>
    show win0_16.index t (0 : Fin 2) * 128 ≤ (i 0).val ∧ (i 0).val < win0_16.index t (0 : Fin 2) * 128 + 128
    omega
  | ⟨1, _⟩ =>
    show win0_16.index t (1 : Fin 2) * 1024 ≤ (i 1).val ∧ (i 1).val < win0_16.index t (1 : Fin 2) * 1024 + 1024
    omega

/-- The same, with the index typed as the array's own (the form the whole-array conclusion asks for). -/
theorem cover16_at (c : Dev nD) : ∀ i : ((cfg0.win 16).arr.view.loc (c.tc : Thread nD τ)).2.ty.Idx,
    ∃ t : Fin cfg0.N, (cfg0.win 16).flush t = true ∧ i ∈ ((cfg0.win 16).blk t).view.set :=
  cover16

end Cert.KernelIdeal.Cover

end
-- ==== Proof.KernelValue.lean ====
/-
  What the idealized kernel program computes: its three result arrays as functions of its argument arrays.

  At grid point `t` the body is handed rows `128 t … 128 t + 127` of the four batch arrays and the whole of the ten arrays
  the host prepared, and it writes back rows `128 t … 128 t + 127` of the three results. On those rows its arithmetic is
  the LSTM step of the specification (the block mathematics), so each written block is the matching block of
  `predArr`, `hiddenArr`, `cellArr` of the arguments; the thirty-two blocks cover the 4096 rows, so each result array
  ends as that function of the arguments, whole.
-/
import proofs.«164272_j80831284510999_2_alg».proof.Proof.RunIdeal
import proofs.«164272_j80831284510999_2_alg».proof.Proof.Block
import proofs.«164272_j80831284510999_2_alg».proof.Proof.Prefix
import proofs.«164272_j80831284510999_2_alg».proof.Proof.Cover
import Idealize.ShloMosaic.Lib.Pipeline.Value
import Idealize.ShloMosaic.Lib.ValueIdx

set_option maxRecDepth 16384

noncomputable section

namespace Cert.KernelIdeal.StepValue

open Cert.KernelIdeal Cert.KernelIdeal.Gen Cert.KernelIdeal.Step Cert.KernelIdeal.Block Cert.KernelIdeal.Prefix Cert.KernelIdeal.Cover Cert.Lstm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A grid point's 128 rows lie inside the 4096. -/
theorem point_le (t : Fin cfg0.N) : 128 * t.val + 128 ≤ 4096 := by
  have hN : cfg0.N = 32 := N_0
  have := t.isLt
  omega

/-! ## The input blocks -/

/-- Window 0's block at point `t` is rows `128 t … 128 t + 127` of argument 0. -/
theorem rows0 (c : Dev nD) (t : Fin cfg0.N) : Rows (128 * t.val) (point_le t) (blk m c 0 t) (m ((c : Thread nD τ).loc main_arg0)) := by
  intro p k
  unfold blk
  rw [View.read_apply]
  show V m c main_arg0 _ = _
  rw [V_arg0]
  congr 1
  funext a; apply Fin.ext
  match a with
  | ⟨0, _⟩ => show win0_0.index t 0 * 128 + 1 * p.val = 128 * t.val + p.val; rw [(idx_in t).1.1]; omega
  | ⟨1, _⟩ => show win0_0.index t 1 * 1024 + 1 * k.val = k.val; rw [(idx_in t).1.2]; omega

/-- Window 1's block at point `t` is rows `128 t … 128 t + 127` of argument 1. -/
theorem rows1 (c : Dev nD) (t : Fin cfg0.N) : Rows (128 * t.val) (point_le t) (blk m c 1 t) (m ((c : Thread nD τ).loc main_arg1)) := by
  intro p k
  unfold blk
  rw [View.read_apply]
  show V m c main_arg1 _ = _
  rw [V_arg1]
  congr 1
  funext a; apply Fin.ext
  match a with
  | ⟨0, _⟩ => show win0_1.index t 0 * 128 + 1 * p.val = 128 * t.val + p.val; rw [(idx_in t).2.1.1]; omega
  | ⟨1, _⟩ => show win0_1.index t 1 * 1024 + 1 * k.val = k.val; rw [(idx_in t).2.1.2]; omega

/-- Window 2's block at point `t` is rows `128 t … 128 t + 127` of argument 2. -/
theorem rows2 (c : Dev nD) (t : Fin cfg0.N) : Rows (128 * t.val) (point_le t) (blk m c 2 t) (m ((c : Thread nD τ).loc main_arg2)) := by
  intro p k
  unfold blk
  rw [View.read_apply]
  show V m c main_arg2 _ = _
  rw [V_arg2]
  congr 1
  funext a; apply Fin.ext
  match a with
  | ⟨0, _⟩ => show win0_2.index t 0 * 128 + 1 * p.val = 128 * t.val + p.val; rw [(idx_in t).2.2.1.1]; omega
  | ⟨1, _⟩ => show win0_2.index t 1 * 1024 + 1 * k.val = k.val; rw [(idx_in t).2.2.1.2]; omega

/-- Window 3's block at point `t` is rows `128 t … 128 t + 127` of argument 3. -/
theorem rows3 (c : Dev nD) (t : Fin cfg0.N) : Rows (128 * t.val) (point_le t) (blk m c 3 t) (m ((c : Thread nD τ).loc main_arg3)) := by
  intro p k
  unfold blk
  rw [View.read_apply]
  show V m c main_arg3 _ = _
  rw [V_arg3]
  congr 1
  funext a; apply Fin.ext
  match a with
  | ⟨0, _⟩ => show win0_3.index t 0 * 128 + 1 * p.val = 128 * t.val + p.val; rw [(idx_in t).2.2.2.1]; omega
  | ⟨1, _⟩ => show win0_3.index t 1 * 1024 + 1 * k.val = k.val; rw [(idx_in t).2.2.2.2]; omega

/-- Window 4's block at every point is the whole array the host prepared. -/
theorem whole4 (c : Dev nD) (t : Fin cfg0.N) : (blk m c 4 t : Vec Ideal S1024x4096 .bf16) = V m c main_v9 := by
  funext y
  unfold blk
  rw [View.read_apply]
  show V m c main_v9 _ = V m c main_v9 y
  congr 1
  funext a; apply Fin.ext
  match a with
  | ⟨0, _⟩ => show win0_4.index t 0 * 1024 + 1 * (y 0).val = (y 0).val; rw [(idx_whole t).1.1]; omega
  | ⟨1, _⟩ => show win0_4.index t 1 * 4096 + 1 * (y 1).val = (y 1).val; rw [(idx_whole t).1.2]; omega

/-- Window 5's block at every point is the whole array the host prepared. -/
theorem whole5 (c : Dev nD) (t : Fin cfg0.N) : (blk m c 5 t : Vec Ideal S1024x4096 .bf16) = V m c main_v15 := by
  funext y
  unfold blk
  rw [View.read_apply]
  show V m c main_v15 _ = V m c main_v15 y
  congr 1
  funext a; apply Fin.ext
  match a with
  | ⟨0, _⟩ => show win0_5.index t 0 * 1024 + 1 * (y 0).val = (y 0).val; rw [(idx_whole t).2.1.1]; omega
  | ⟨1, _⟩ => show win0_5.index t 1 * 4096 + 1 * (y 1).val = (y 1).val; rw [(idx_whole t).2.1.2]; omega

/-- Window 6's block at every point is the whole array the host prepared. -/
theorem whole6 (c : Dev nD) (t : Fin cfg0.N) : (blk m c 6 t : Vec Ideal S1024x4096 .bf16) = V m c main_v21 := by
  funext y
  unfold blk
  rw [View.read_apply]
  show V m c main_v21 _ = V m c main_v21 y
  congr 1
  funext a; apply Fin.ext
  match a with
  | ⟨0, _⟩ => show win0_6.index t 0 * 1024 + 1 * (y 0).val = (y 0).val; rw [(idx_whole t).2.2.1.1]; omega
  | ⟨1, _⟩ => show win0_6.index t 1 * 4096 + 1 * (y 1).val = (y 1).val; rw [(idx_whole t).2.2.1.2]; omega

/-- Window 7's block at every point is the whole array the host prepared. -/
theorem whole7 (c : Dev nD) (t : Fin cfg0.N) : (blk m c 7 t : Vec Ideal S1x4096 .f32) = V m c main_v23 := by
  funext y
  unfold blk
  rw [View.read_apply]
  show V m c main_v23 _ = V m c main_v23 y
  congr 1
  funext a; apply Fin.ext
  match a with
  | ⟨0, _⟩ => show win0_7.index t 0 * 1 + 1 * (y 0).val = (y 0).val; rw [(idx_whole t).2.2.2.1.1]; omega
  | ⟨1, _⟩ => show win0_7.index t 1 * 4096 + 1 * (y 1).val = (y 1).val; rw [(idx_whole t).2.2.2.1.2]; omega

/-- Window 8's block at every point is the whole array the host prepared. -/
theorem whole8 (c : Dev nD) (t : Fin cfg0.N) : (blk m c 8 t : Vec Ideal S1024x1024 .bf16) = V m c main_v25 := by
  funext y
  unfold blk
  rw [View.read_apply]
  show V m c main_v25 _ = V m c main_v25 y
  congr 1
  funext a; apply Fin.ext
  match a with
  | ⟨0, _⟩ => show win0_8.index t 0 * 1024 + 1 * (y 0).val = (y 0).val; rw [(idx_whole t).2.2.2.2.1.1]; omega
  | ⟨1, _⟩ => show win0_8.index t 1 * 1024 + 1 * (y 1).val = (y 1).val; rw [(idx_whole t).2.2.2.2.1.2]; omega

/-- Window 9's block at every point is the whole array the host prepared. -/
theorem whole9 (c : Dev nD) (t : Fin cfg0.N) : (blk m c 9 t : Vec Ideal S1024x1024 .bf16) = V m c main_v27 := by
  funext y
  unfold blk
  rw [View.read_apply]
  show V m c main_v27 _ = V m c main_v27 y
  congr 1
  funext a; apply Fin.ext
  match a with
  | ⟨0, _⟩ => show win0_9.index t 0 * 1024 + 1 * (y 0).val = (y 0).val; rw [(idx_whole t).2.2.2.2.2.1.1]; omega
  | ⟨1, _⟩ => show win0_9.index t 1 * 1024 + 1 * (y 1).val = (y 1).val; rw [(idx_whole t).2.2.2.2.2.1.2]; omega

/-- Window 10's block at every point is the whole array the host prepared. -/
theorem whole10 (c : Dev nD) (t : Fin cfg0.N) : (blk m c 10 t : Vec Ideal S1024x1024 .bf16) = V m c main_v29 := by
  funext y
  unfold blk
  rw [View.read_apply]
  show V m c main_v29 _ = V m c main_v29 y
  congr 1
  funext a; apply Fin.ext
  match a with
  | ⟨0, _⟩ => show win0_10.index t 0 * 1024 + 1 * (y 0).val = (y 0).val; rw [(idx_whole t).2.2.2.2.2.2.1.1]; omega
  | ⟨1, _⟩ => show win0_10.index t 1 * 1024 + 1 * (y 1).val = (y 1).val; rw [(idx_whole t).2.2.2.2.2.2.1.2]; omega

/-- Window 11's block at every point is the whole array the host prepared. -/
theorem whole11 (c : Dev nD) (t : Fin cfg0.N) : (blk m c 11 t : Vec Ideal S1x1024 .f32) = V m c main_v30 := by
  funext y
  unfold blk
  rw [View.read_apply]
  show V m c main_v30 _ = V m c main_v30 y
  congr 1
  funext a; apply Fin.ext
  match a with
  | ⟨0, _⟩ => show win0_11.index t 0 * 1 + 1 * (y 0).val = (y 0).val; rw [(idx_whole t).2.2.2.2.2.2.2.1.1]; omega
  | ⟨1, _⟩ => show win0_11.index t 1 * 1024 + 1 * (y 1).val = (y 1).val; rw [(idx_whole t).2.2.2.2.2.2.2.1.2]; omega

/-- Window 12's block at every point is the whole array the host prepared. -/
theorem whole12 (c : Dev nD) (t : Fin cfg0.N) : (blk m c 12 t : Vec Ideal S1x1024 .f32) = V m c main_v31 := by
  funext y
  unfold blk
  rw [View.read_apply]
  show V m c main_v31 _ = V m c main_v31 y
  congr 1
  funext a; apply Fin.ext
  match a with
  | ⟨0, _⟩ => show win0_12.index t 0 * 1 + 1 * (y 0).val = (y 0).val; rw [(idx_whole t).2.2.2.2.2.2.2.2.1.1]; omega
  | ⟨1, _⟩ => show win0_12.index t 1 * 1024 + 1 * (y 1).val = (y 1).val; rw [(idx_whole t).2.2.2.2.2.2.2.2.1.2]; omega

/-- Window 13's block at every point is the whole array the host prepared. -/
theorem whole13 (c : Dev nD) (t : Fin cfg0.N) : (blk m c 13 t : Vec Ideal S1x1024 .f32) = V m c main_v32 := by
  funext y
  unfold blk
  rw [View.read_apply]
  show V m c main_v32 _ = V m c main_v32 y
  congr 1
  funext a; apply Fin.ext
  match a with
  | ⟨0, _⟩ => show win0_13.index t 0 * 1 + 1 * (y 0).val = (y 0).val; rw [(idx_whole t).2.2.2.2.2.2.2.2.2.1]; omega
  | ⟨1, _⟩ => show win0_13.index t 1 * 1024 + 1 * (y 1).val = (y 1).val; rw [(idx_whole t).2.2.2.2.2.2.2.2.2.2]; omega

/-! ## The written blocks and the result arrays -/

/-- What point `t` writes back into result 0 is block `t` of `predArr` of the arguments. -/
theorem flushed_pred (c : Dev nD) (t : Fin cfg0.N) :
    (dats m 0 c).flushed 14 t = ((cfg0.win 14).blk t).view.read (Elt Ideal) (predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show (cfg0.win 14).cut (grid0.coords t) ((dats m 0 c).after 14 t) = _
  rw [after14]
  unfold outPred
  rw [View.canon_unit_zero hz]
  simp only [View.ld_unit_zero (S := S128x1024) hz, View.ld_unit_zero (S := S1024x4096) hz, View.ld_unit_zero (S := S1x4096) hz,
    View.ld_unit_zero (S := S1024x1024) hz, View.ld_unit_zero (S := S1x1024) hz]
  funext y
  obtain ⟨p, j, rfl⟩ : ∃ (p : Fin 128) (j : Fin 1024), y = ix2 p j := ⟨y 0, y 1, eq_ix2 y⟩
  rw [View.read_apply]
  refine (pred_block (rows0 m c t) (rows1 m c t) (rows2 m c t) (rows3 m c t)
    (by rw [whole4]; exact packs_e m c) (by rw [whole5]; exact packs_h m c) (by rw [whole6]; exact packs_c m c)
    (by rw [whole7]; exact packs_bias m c)
    (by rw [whole8]; exact transposed_h m c) (by rw [whole9]; exact transposed_c m c) (by rw [whole10]; exact transposed_p m c)
    (by rw [whole11]; exact row_bh m c) (by rw [whole12]; exact row_bc m c) (by rw [whole13]; exact row_bp m c) p j).trans ?_
  congr 1
  funext a; apply Fin.ext
  match a with
  | ⟨0, _⟩ => show 128 * t.val + p.val = win0_14.index t 0 * 128 + 1 * p.val; rw [(idx_out t).1.1]; omega
  | ⟨1, _⟩ => show j.val = win0_14.index t 1 * 1024 + 1 * j.val; rw [(idx_out t).1.2]; omega

/-- So result 0 ends as `predArr` of the arguments: the blocks cover it. -/
theorem final_pred (c : Dev nD) : (dats m 0 c).arrAt 14 cfg0.N = predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (dats m 0 c).arrAt_eq_of_cover 14 (predArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) (fun t _ => flushed_pred m c t) (cover14_at c)

/-- What point `t` writes back into result 1 is block `t` of `hiddenArr` of the arguments. -/
theorem flushed_hidden (c : Dev nD) (t : Fin cfg0.N) :
    (dats m 0 c).flushed 15 t = ((cfg0.win 15).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  show (cfg0.win 15).cut (grid0.coords t) ((dats m 0 c).after 15 t) = _
  rw [after15]
  unfold outHidden
  rw [View.canon_unit_zero hz]
  simp only [View.ld_unit_zero (S := S128x1024) hz, View.ld_unit_zero (S := S1024x4096) hz, View.ld_unit_zero (S := S1x4096) hz,
    View.ld_unit_zero (S := S1024x1024) hz, View.ld_unit_zero (S := S1x1024) hz]
  funext y
  obtain ⟨p, j, rfl⟩ : ∃ (p : Fin 128) (j : Fin 1024), y = ix2 p j := ⟨y 0, y 1, eq_ix2 y⟩
  rw [View.read_apply]
  refine (hidden_block (rows0 m c t) (rows1 m c t) (rows2 m c t) (rows3 m c t)
    (by rw [whole4]; exact packs_e m c) (by rw [whole5]; exact packs_h m c) (by rw [whole6]; exact packs_c m c)
    (by rw [whole7]; exact packs_bias m c) p j).trans ?_
  congr 1
  funext a; apply Fin.ext
  match a with
  | ⟨0, _⟩ => show 128 * t.val + p.val = win0_15.index t 0 * 128 + 1 * p.val; rw [(idx_out t).2.1.1]; omega
  | ⟨1, _⟩ => show j.val = win0_15.index t 1 * 1024 + 1 * j.val; rw [(idx_out t).2.1.2]; omega

/-- So result 1 ends as `hiddenArr` of the arguments: the blocks cover it. -/
theorem final_hidden (c : Dev nD) : (dats m 0 c).arrAt 15 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 15 (hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (fun t _ => flushed_hidden m c t) (cover15_at c)

/-- What point `t` writes back into result 2 is block `t` of `cellArr` of the arguments. -/
theorem flushed_cell (c : Dev nD) (t : Fin cfg0.N) :
    (dats m 0 c).flushed 16 t = ((cfg0.win 16).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))) := by
  show (cfg0.win 16).cut (grid0.coords t) ((dats m 0 c).after 16 t) = _
  rw [after16]
  unfold outCell
  rw [View.canon_unit_zero hz]
  simp only [View.ld_unit_zero (S := S128x1024) hz, View.ld_unit_zero (S := S1024x4096) hz, View.ld_unit_zero (S := S1x4096) hz,
    View.ld_unit_zero (S := S1024x1024) hz, View.ld_unit_zero (S := S1x1024) hz]
  funext y
  obtain ⟨p, j, rfl⟩ : ∃ (p : Fin 128) (j : Fin 1024), y = ix2 p j := ⟨y 0, y 1, eq_ix2 y⟩
  rw [View.read_apply]
  refine (cell_block (rows0 m c t) (rows1 m c t) (rows2 m c t) (rows3 m c t)
    (by rw [whole4]; exact packs_e m c) (by rw [whole5]; exact packs_h m c) (by rw [whole6]; exact packs_c m c)
    (by rw [whole7]; exact packs_bias m c) p j).trans ?_
  congr 1
  funext a; apply Fin.ext
  match a with
  | ⟨0, _⟩ => show 128 * t.val + p.val = win0_16.index t 0 * 128 + 1 * p.val; rw [(idx_out t).2.2.1]; omega
  | ⟨1, _⟩ => show j.val = win0_16.index t 1 * 1024 + 1 * j.val; rw [(idx_out t).2.2.2]; omega

/-- So result 2 ends as `cellArr` of the arguments: the blocks cover it. -/
theorem final_cell (c : Dev nD) : (dats m 0 c).arrAt 16 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) :=
  (dats m 0 c).arrAt_eq_of_cover 16 (cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))) (fun t _ => flushed_cell m c t) (cover16_at c)

/-! ## The run, read -/

/-- Every weakly fair execution of the idealized kernel program terminates without a fault, its three results at the
    specification's functions of the launch arguments and its arguments unchanged. -/
theorem run : θ_run defs (onTc (τ := τ) (main (F := Ideal))) ⟨m, fun _ => 0, ρ⟩ (fun r => ∀ c : Dev nD,
      r.2.mem ((c.tc : Thread nD τ).loc main_v33_0) = predArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v33_1) = hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v33_2) = cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 14).trans (final_pred m c), ((h c).1 15).trans (final_hidden m c),
      ((h c).1 16).trans (final_cell m c),
      ((h c).1 0).trans ((((dats m) 0 c).arrAt_in 0 rfl _).trans ((A_eq m c 0).trans (V_arg0 m c))),
      ((h c).1 1).trans ((((dats m) 0 c).arrAt_in 1 rfl _).trans ((A_eq m c 1).trans (V_arg1 m c))),
      ((h c).1 2).trans ((((dats m) 0 c).arrAt_in 2 rfl _).trans ((A_eq m c 2).trans (V_arg2 m c))),
      ((h c).1 3).trans ((((dats m) 0 c).arrAt_in 3 rfl _).trans ((A_eq m c 3).trans (V_arg3 m c))),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c),
      ((h c).2 main_arg14 (Pipeline.mem_restRefs_of main_arg14 (by decide) (by decide))).trans (V_arg14 m c),
      ((h c).2 main_arg15 (Pipeline.mem_restRefs_of main_arg15 (by decide) (by decide))).trans (V_arg15 m c),
      ((h c).2 main_arg16 (Pipeline.mem_restRefs_of main_arg16 (by decide) (by decide))).trans (V_arg16 m c),
      ((h c).2 main_arg17 (Pipeline.mem_restRefs_of main_arg17 (by decide) (by decide))).trans (V_arg17 m c)⟩) (run_main m ρ)

end Cert.KernelIdeal.StepValue

end
-- ==== Proof.RefValue.lean ====
/-
  The reference program's three results are the specification's arrays.

  The reference joins each row's activations into one row `[e | h | c]` of 3072 entries and takes one inner product of
  it with each gate's weight row. An entry of the joined row is an entry of the piece whose column range holds it, and
  a sum over the 3072 columns is the sum of the three sums over the column ranges, so the inner product is the
  specification's pre-activation. The sigmoid is written out as `1 / (1 + exp (-x))`, which is the logistic function
  by definition. The residual's five terms are grouped `(e + (dh + bh)) + (dc + bc)`, which is the specification's
  left-to-right grouping by associativity of addition.
-/
import proofs.«164272_j80831284510999_2_alg».proof.Proof.Gen.ReferenceIdeal.Read
import proofs.«164272_j80831284510999_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Lstm

/-! ## The joined row at an index -/

variable (x0 x1 x2 x3 : FVec Ideal ⟨2, ![4096, 1024]⟩ .f32)

/-- Columns 0 to 1023 of the joined row are the embedded input's. -/
theorem joined_first (r : Fin 4096) (k : Fin 1024) :
    val_main_v0 (F := Ideal) x0 x1 x3 (ix2 r (col 0 (by omega) k)) = x0 (ix2 r k) := by
  unfold val_main_v0
  refine concatenate_apply_piece (t := S4096x3072) (1 : Fin 2) [⟨S4096x1024, x0⟩, ⟨S4096x1024, x1⟩, ⟨S4096x1024, x3⟩]
    concatenates_S4096x1024_S4096x1024_S4096x1024_S4096x3072_d1 _ 0 (by show (0 : ℕ) < 3; decide) S4096x1024 x0 rfl rfl 0 rfl (ix2 r k) ?_ ?_
  · intro b hb
    match b with
    | ⟨0, _⟩ => rfl
    | ⟨1, _⟩ => exact absurd rfl hb
  · rfl

/-- Columns 1024 to 2047 of the joined row are the hidden state's. -/
theorem joined_second (r : Fin 4096) (k : Fin 1024) :
    val_main_v0 (F := Ideal) x0 x1 x3 (ix2 r (col 1024 (by omega) k)) = x1 (ix2 r k) := by
  unfold val_main_v0
  refine concatenate_apply_piece (t := S4096x3072) (1 : Fin 2) [⟨S4096x1024, x0⟩, ⟨S4096x1024, x1⟩, ⟨S4096x1024, x3⟩]
    concatenates_S4096x1024_S4096x1024_S4096x1024_S4096x3072_d1 _ 1 (by show (1 : ℕ) < 3; decide) S4096x1024 x1 rfl rfl 1024 rfl (ix2 r k) ?_ ?_
  · intro b hb
    match b with
    | ⟨0, _⟩ => rfl
    | ⟨1, _⟩ => exact absurd rfl hb
  · rfl

/-- Columns 2048 to 3071 of the joined row are the context vector's. -/
theorem joined_third (r : Fin 4096) (k : Fin 1024) :
    val_main_v0 (F := Ideal) x0 x1 x3 (ix2 r (col 2048 (by omega) k)) = x3 (ix2 r k) := by
  unfold val_main_v0
  refine concatenate_apply_piece (t := S4096x3072) (1 : Fin 2) [⟨S4096x1024, x0⟩, ⟨S4096x1024, x1⟩, ⟨S4096x1024, x3⟩]
    concatenates_S4096x1024_S4096x1024_S4096x1024_S4096x3072_d1 _ 2 (by show (2 : ℕ) < 3; decide) S4096x1024 x3 rfl rfl 2048 rfl (ix2 r k) ?_ ?_
  · intro b hb
    match b with
    | ⟨0, _⟩ => rfl
    | ⟨1, _⟩ => exact absurd rfl hb
  · rfl

/-! ## A sum over the joined row's columns -/

/-- A sum over 3072 columns is the sum of the sums over its three ranges of 1024 columns. -/
theorem sum_three (f : Fin 3072 → EReal) :
    ∑ k, f k = ((∑ k : Fin 1024, f (col 0 (by omega) k)) + ∑ k : Fin 1024, f (col 1024 (by omega) k))
      + ∑ k : Fin 1024, f (col 2048 (by omega) k) := by
  have h : ∑ k : Fin (1024 + 1024 + 1024), f k
      = (∑ k : Fin (1024 + 1024), f (Fin.castAdd 1024 k)) + ∑ k : Fin 1024, f (Fin.natAdd (1024 + 1024) k) :=
    Fin.sum_univ_add _
  have h' : ∑ k : Fin (1024 + 1024), f (Fin.castAdd 1024 k)
      = (∑ k : Fin 1024, f (Fin.castAdd 1024 (Fin.castAdd 1024 k)))
        + ∑ k : Fin 1024, f (Fin.castAdd 1024 (Fin.natAdd 1024 k)) :=
    Fin.sum_univ_add _
  refine h.trans ?_
  rw [h']
  refine congrArg₂ (· + ·) (congrArg₂ (· + ·) ?_ ?_) ?_
  · exact Finset.sum_congr rfl fun k _ => congrArg f (Fin.ext (Nat.zero_add _).symm)
  · exact Finset.sum_congr rfl fun k _ => congrArg f (Fin.ext rfl)
  · exact Finset.sum_congr rfl fun k _ => congrArg f (Fin.ext rfl)

/-! ## One gate -/

section Gate

variable (W : FVec Ideal ⟨2, ![1024, 3072]⟩ .f32) (b : FVec Ideal ⟨1, ![1024]⟩ .f32)

/-- A gate's inner product over the joined row is the sum of the three partial inner products. -/
theorem dot_joined (r : Fin 4096) (j : Fin 1024) :
    val_main_v2 (F := Ideal) x0 x1 x3 W (ix2 r j)
      = ((∑ k, row x0 r k * mat W j (col 0 (by omega) k)) + ∑ k, row x1 r k * mat W j (col 1024 (by omega) k))
        + ∑ k, row x3 r k * mat W j (col 2048 (by omega) k) := by
  have hl : ∀ kk : Fin 3072, lidx_main_v2 (ix2 r j) kk = ix2 r kk := fun kk => funext fun a => by
    match a with
    | ⟨0, _⟩ => rfl
    | ⟨1, _⟩ => rfl
  have hr : ∀ kk : Fin 3072, val_main_v1 (F := Ideal) W (ridx_main_v2 (ix2 r j) kk) = W (ix2 j kk) := fun kk => by
    rw [val_main_v1_apply]
    exact congrArg W (funext fun a => by
      match a with
      | ⟨0, _⟩ => rfl
      | ⟨1, _⟩ => rfl)
  rw [val_main_v2_apply, sum_three]
  refine congrArg₂ (· + ·) (congrArg₂ (· + ·) ?_ ?_) ?_
  · exact Finset.sum_congr rfl fun k _ => congrArg₂ (· * ·)
      ((congrArg (val_main_v0 (F := Ideal) x0 x1 x3) (hl _)).trans (joined_first x0 x1 x3 r k)) (hr _)
  · exact Finset.sum_congr rfl fun k _ => congrArg₂ (· * ·)
      ((congrArg (val_main_v0 (F := Ideal) x0 x1 x3) (hl _)).trans (joined_second x0 x1 x3 r k)) (hr _)
  · exact Finset.sum_congr rfl fun k _ => congrArg₂ (· * ·)
      ((congrArg (val_main_v0 (F := Ideal) x0 x1 x3) (hl _)).trans (joined_third x0 x1 x3 r k)) (hr _)

/-- The bias spread over the batch rows, at an index. -/
theorem bias_row (r : Fin 4096) (j : Fin 1024) : val_main_v4 (F := Ideal) b (ix2 r j) = vec b j := by
  rw [val_main_v4_apply, val_main_v3_apply]
  exact congrArg b (funext fun a => by
    match a with
    | ⟨0, _⟩ => rfl)

/-- A gate's pre-activation. -/
theorem pre_row (r : Fin 4096) (j : Fin 1024) :
    val_main_v5 (F := Ideal) x0 x1 x3 W b (ix2 r j) = pre (row x0 r) (row x1 r) (row x3 r) (mat W) (vec b) j := by
  rw [val_main_v5_apply, dot_joined, bias_row]
  rfl

/-- The sigmoid written out, `1 / (1 + exp (-x))` with the constant word read as one, is the logistic function. -/
theorem sigmoid_row (r : Fin 4096) (j : Fin 1024) :
    val_main_v11 (F := Ideal) x0 x1 x3 W b (ix2 r j)
      = Ideal.logistic (pre (row x0 r) (row x1 r) (row x3 r) (mat W) (vec b) j) := by
  rw [val_main_v11_apply, val_main_v10_apply, val_main_cst_0_apply, val_main_v9_apply, val_main_v8_apply,
    val_main_cst_apply, val_main_v7_apply, val_main_v6_apply, pre_row]
  rw [Ideal.ofBits_def, Ideal.ofBits_one_f32]
  rfl

end Gate

/-! ## The cell state and the hidden state -/

section Cell

variable (W4 : FVec Ideal ⟨2, ![1024, 3072]⟩ .f32) (b5 : FVec Ideal ⟨1, ![1024]⟩ .f32)
  (W6 : FVec Ideal ⟨2, ![1024, 3072]⟩ .f32) (b7 : FVec Ideal ⟨1, ![1024]⟩ .f32)
  (W8 : FVec Ideal ⟨2, ![1024, 3072]⟩ .f32) (b9 : FVec Ideal ⟨1, ![1024]⟩ .f32)
  (W10 : FVec Ideal ⟨2, ![1024, 3072]⟩ .f32) (b11 : FVec Ideal ⟨1, ![1024]⟩ .f32)

/-- The forget gate is the same function of its own weights as the input gate. -/
theorem forget_row (r : Fin 4096) (j : Fin 1024) :
    val_main_v22 (F := Ideal) x0 x1 x3 W6 b7 (ix2 r j)
      = Ideal.logistic (pre (row x0 r) (row x1 r) (row x3 r) (mat W6) (vec b7) j) :=
  sigmoid_row x0 x1 x3 W6 b7 r j

/-- The output gate is the same function of its own weights as the input gate. -/
theorem output_row (r : Fin 4096) (j : Fin 1024) :
    val_main_v33 (F := Ideal) x0 x1 x3 W8 b9 (ix2 r j)
      = Ideal.logistic (pre (row x0 r) (row x1 r) (row x3 r) (mat W8) (vec b9) j) :=
  sigmoid_row x0 x1 x3 W8 b9 r j

/-- The candidate: the hyperbolic tangent of its pre-activation. -/
theorem candidate_row (r : Fin 4096) (j : Fin 1024) :
    val_main_v39 (F := Ideal) x0 x1 x3 W10 b11 (ix2 r j)
      = Ideal.tanh (pre (row x0 r) (row x1 r) (row x3 r) (mat W10) (vec b11) j) := by
  rw [val_main_v39_apply, Ideal.hostUnary_tanh_def]
  exact congrArg Ideal.tanh (pre_row x0 x1 x3 W10 b11 r j)

/-- The new cell state at an index. -/
theorem cell_row (r : Fin 4096) (j : Fin 1024) :
    val_main_v42 (F := Ideal) x0 x1 x2 x3 W4 b5 W6 b7 W10 b11 (ix2 r j)
      = cell (row x0 r) (row x1 r) (row x3 r) (row x2 r) (mat W4) (mat W6) (mat W10) (vec b5) (vec b7) (vec b11) j := by
  rw [val_main_v42_apply, val_main_v40_apply, val_main_v41_apply, forget_row, sigmoid_row, candidate_row]
  rfl

/-- **The reference's cell states are the specification's.** -/
theorem cell_eq :
    val_main_v42 (F := Ideal) x0 x1 x2 x3 W4 b5 W6 b7 W10 b11 = cellArr x0 x1 x2 x3 W4 b5 W6 b7 W10 b11 := by
  funext i
  obtain ⟨r, j, rfl⟩ : ∃ (r : Fin 4096) (j : Fin 1024), i = ix2 r j := ⟨i 0, i 1, eq_ix2 i⟩
  exact cell_row x0 x1 x2 x3 W4 b5 W6 b7 W10 b11 r j

/-- The new hidden state at an index. -/
theorem hidden_row (r : Fin 4096) (j : Fin 1024) :
    val_main_v44 (F := Ideal) x0 x1 x2 x3 W4 b5 W6 b7 W8 b9 W10 b11 (ix2 r j)
      = hidden (row x0 r) (row x1 r) (row x3 r) (row x2 r) (mat W4) (mat W6) (mat W8) (mat W10)
          (vec b5) (vec b7) (vec b9) (vec b11) j := by
  rw [val_main_v44_apply, val_main_v43_apply, output_row, cell_row, Ideal.hostUnary_tanh_def]
  rfl

/-- **The reference's hidden states are the specification's.** -/
theorem hidden_eq :
    val_main_v44 (F := Ideal) x0 x1 x2 x3 W4 b5 W6 b7 W8 b9 W10 b11
      = hiddenArr x0 x1 x2 x3 W4 b5 W6 b7 W8 b9 W10 b11 := by
  funext i
  obtain ⟨r, j, rfl⟩ : ∃ (r : Fin 4096) (j : Fin 1024), i = ix2 r j := ⟨i 0, i 1, eq_ix2 i⟩
  exact hidden_row x0 x1 x2 x3 W4 b5 W6 b7 W8 b9 W10 b11 r j

end Cell

/-! ## The prediction -/

section Prediction

variable (W4 : FVec Ideal ⟨2, ![1024, 3072]⟩ .f32) (b5 : FVec Ideal ⟨1, ![1024]⟩ .f32)
  (W6 : FVec Ideal ⟨2, ![1024, 3072]⟩ .f32) (b7 : FVec Ideal ⟨1, ![1024]⟩ .f32)
  (W8 : FVec Ideal ⟨2, ![1024, 3072]⟩ .f32) (b9 : FVec Ideal ⟨1, ![1024]⟩ .f32)
  (W10 : FVec Ideal ⟨2, ![1024, 3072]⟩ .f32) (b11 : FVec Ideal ⟨1, ![1024]⟩ .f32)
  (W12 : FVec Ideal ⟨2, ![1024, 1024]⟩ .f32) (b13 : FVec Ideal ⟨1, ![1024]⟩ .f32)
  (W14 : FVec Ideal ⟨2, ![1024, 1024]⟩ .f32) (b15 : FVec Ideal ⟨1, ![1024]⟩ .f32)
  (W16 : FVec Ideal ⟨2, ![1024, 1024]⟩ .f32) (b17 : FVec Ideal ⟨1, ![1024]⟩ .f32)

/-- Five terms grouped as `(e + (dh + bh)) + (dc + bc)` are the same terms added left to right. -/
theorem regroup (e dh bh dc bc : EReal) : (e + (dh + bh)) + (dc + bc) = (((e + dh) + bh) + dc) + bc := by
  rw [← add_assoc (e + (dh + bh)) dc bc, ← add_assoc e dh bh]

/-- The hidden state projected: an inner product of the hidden row with a row of the weight. -/
theorem proj_hidden_row (r : Fin 4096) (k : Fin 1024) :
    val_main_v46 (F := Ideal) x0 x1 x2 x3 W4 b5 W6 b7 W8 b9 W10 b11 W14 (ix2 r k)
      = ∑ l, (hidden (row x0 r) (row x1 r) (row x3 r) (row x2 r) (mat W4) (mat W6) (mat W8) (mat W10)
          (vec b5) (vec b7) (vec b9) (vec b11)) l * mat W14 k l := by
  rw [val_main_v46_apply]
  refine Finset.sum_congr rfl fun l _ => congrArg₂ (· * ·) ?_ ?_
  · have hl : lidx_main_v46 (ix2 r k) l = ix2 r l := funext fun a => by
      match a with
      | ⟨0, _⟩ => rfl
      | ⟨1, _⟩ => rfl
    rw [hl]
    exact hidden_row x0 x1 x2 x3 W4 b5 W6 b7 W8 b9 W10 b11 r l
  · rw [val_main_v45_apply]
    exact congrArg W14 (funext fun a => by
      match a with
      | ⟨0, _⟩ => rfl
      | ⟨1, _⟩ => rfl)

/-- The context vector projected. -/
theorem proj_context_row (r : Fin 4096) (k : Fin 1024) :
    val_main_v52 (F := Ideal) x3 W12 (ix2 r k) = ∑ l, row x3 r l * mat W12 k l := by
  rw [val_main_v52_apply]
  refine Finset.sum_congr rfl fun l _ => congrArg₂ (· * ·) ?_ ?_
  · exact congrArg x3 (funext fun a => by
      match a with
      | ⟨0, _⟩ => rfl
      | ⟨1, _⟩ => rfl)
  · rw [val_main_v51_apply]
    exact congrArg W12 (funext fun a => by
      match a with
      | ⟨0, _⟩ => rfl
      | ⟨1, _⟩ => rfl)

/-- The residual at an index. -/
theorem resid_row (r : Fin 4096) (k : Fin 1024) :
    val_main_v56 (F := Ideal) x0 x1 x2 x3 W4 b5 W6 b7 W8 b9 W10 b11 W12 b13 W14 b15 (ix2 r k)
      = resid (row x0 r) (row x3 r)
          (hidden (row x0 r) (row x1 r) (row x3 r) (row x2 r) (mat W4) (mat W6) (mat W8) (mat W10)
          (vec b5) (vec b7) (vec b9) (vec b11))
          (mat W14) (mat W12) (vec b15) (vec b13) k := by
  have h48 : val_main_v48 (F := Ideal) b15 (ix2 r k) = vec b15 k := bias_row b15 r k
  have h54 : val_main_v54 (F := Ideal) b13 (ix2 r k) = vec b13 k := bias_row b13 r k
  rw [val_main_v56_apply, val_main_v50_apply, val_main_v49_apply, val_main_v55_apply, proj_hidden_row, proj_context_row,
    h48, h54]
  simp only [Ideal.addf_def]
  exact regroup _ _ _ _ _

/-- The prediction at an index. -/
theorem pred_row (r : Fin 4096) (j : Fin 1024) :
    val_main_v61 (F := Ideal) x0 x1 x2 x3 W4 b5 W6 b7 W8 b9 W10 b11 W12 b13 W14 b15 W16 b17 (ix2 r j)
      = pred (row x0 r) (row x3 r)
          (hidden (row x0 r) (row x1 r) (row x3 r) (row x2 r) (mat W4) (mat W6) (mat W8) (mat W10)
          (vec b5) (vec b7) (vec b9) (vec b11))
          (mat W14) (mat W12) (mat W16) (vec b15) (vec b13) (vec b17) j := by
  have h60 : val_main_v60 (F := Ideal) b17 (ix2 r j) = vec b17 j := bias_row b17 r j
  rw [val_main_v61_apply, val_main_v58_apply, h60, Ideal.addf_def]
  refine congrArg₂ (· + ·) (Finset.sum_congr rfl fun k _ => congrArg₂ (· * ·) ?_ ?_) rfl
  · have hl : lidx_main_v58 (ix2 r j) k = ix2 r k := funext fun a => by
      match a with
      | ⟨0, _⟩ => rfl
      | ⟨1, _⟩ => rfl
    rw [hl]
    exact resid_row x0 x1 x2 x3 W4 b5 W6 b7 W8 b9 W10 b11 W12 b13 W14 b15 r k
  · rw [val_main_v57_apply]
    exact congrArg W16 (funext fun a => by
      match a with
      | ⟨0, _⟩ => rfl
      | ⟨1, _⟩ => rfl)

/-- **The reference's predictions are the specification's.** -/
theorem pred_eq :
    val_main_v61 (F := Ideal) x0 x1 x2 x3 W4 b5 W6 b7 W8 b9 W10 b11 W12 b13 W14 b15 W16 b17
      = predArr x0 x1 x2 x3 W4 b5 W6 b7 W8 b9 W10 b11 W12 b13 W14 b15 W16 b17 := by
  funext i
  obtain ⟨r, j, rfl⟩ : ∃ (r : Fin 4096) (j : Fin 1024), i = ix2 r j := ⟨i 0, i 1, eq_ix2 i⟩
  exact pred_row x0 x1 x2 x3 W4 b5 W6 b7 W8 b9 W10 b11 W12 b13 W14 b15 W16 b17 r j

end Prediction

/-! ## The run's results -/

/-- The run's first result, named by its position among the values returned, is the specification's predictions of
    the arguments' launch contents. -/
theorem res_out0_eq (m : (ℓ : Loc nD τ sig) → Buf (Elt Ideal) ℓ) (c : Dev nD) :
    Cert.ReferenceIdeal.Value.res_out0 (F := Ideal) m c
      = predArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (val_main_v61_eq (F := Ideal) m c).trans (pred_eq _ _ _ _ _ _ _ _ _ _ _ _ _ _ _ _ _ _)

end Cert.ReferenceIdeal.RefValue

end
-- ==== Proof.lean ====
/-
  One step of an LSTM cell with a residual output projection: a TPU kernel over 128-row blocks of the batch, with bf16
  operands on the matrix unit, against the plain formulation over the whole batch.

  Read over the extended reals with exact operations, both programs compute, for every batch row, the same three
  vectors (the specification, Proof/Spec.lean): each gate's pre-activation is an inner product of the row `[e, h, c]`
  with a weight row of 3072 entries, which the kernel takes as three partial inner products over the column ranges of
  `e`, `h` and `c` and the reference as one (a sum over 3072 indices split in three: addition is commutative and
  associative); the kernel's logistic is the reference's `1 / (1 + exp (-x))` by definition; the residual's five terms
  are grouped differently (associativity). No product is distributed and nothing is cancelled, so the argument does not
  need the inputs to be finite.

  The modules: Spec (the specification); EntryIdeal / BodyIdeal / RunIdeal and EntryWord / BodyWord / RunWord (each
  kernel program runs to the end, faults nowhere and leaves its arguments unchanged: the frames); Payload, Layout,
  Block (the body's arithmetic on one block is the specification on the block's rows); Prefix (what the host's layout
  operations hand the kernel); Cover (the written blocks cover the results); KernelValue (the kernel's results are the
  specification's arrays); RefValue (so are the reference's).
-/
import proofs.«164272_j80831284510999_2_alg».proof.Defs
import proofs.«164272_j80831284510999_2_alg».proof.Proof.Gen.Kernel
import proofs.«164272_j80831284510999_2_alg».proof.Proof.Gen.Kernel.Skeleton
import proofs.«164272_j80831284510999_2_alg».proof.Proof.Gen.Kernel.Launch
import proofs.«164272_j80831284510999_2_alg».proof.Proof.Gen.Kernel.Points
import proofs.«164272_j80831284510999_2_alg».proof.Proof.Gen.KernelIdeal
import proofs.«164272_j80831284510999_2_alg».proof.Proof.Gen.KernelIdeal.Skeleton
import proofs.«164272_j80831284510999_2_alg».proof.Proof.Gen.KernelIdeal.Launch
import proofs.«164272_j80831284510999_2_alg».proof.Proof.Gen.KernelIdeal.Points
import proofs.«164272_j80831284510999_2_alg».proof.Proof.Gen.ReferenceIdeal
import proofs.«164272_j80831284510999_2_alg».proof.Proof.Gen.Pre_finite_inputs
import proofs.«164272_j80831284510999_2_alg».proof.Proof.Gen.ReferenceIdeal.Run
import proofs.«164272_j80831284510999_2_alg».proof.Proof.Gen.ReferenceIdeal.Read
import Idealize.ShloMosaic.Adequacy
import Idealize.ShloMosaic.Init
import proofs.«164272_j80831284510999_2_alg».proof.Proof.RunWord
import proofs.«164272_j80831284510999_2_alg».proof.Proof.RunIdeal
import proofs.«164272_j80831284510999_2_alg».proof.Proof.KernelValue
import proofs.«164272_j80831284510999_2_alg».proof.Proof.RefValue

noncomputable section

namespace Cert.Proof

open Idealize.ShloMosaic Idealize.SL.Sem

/-- The word-level kernel program runs to the end without a fault and leaves its arguments unchanged. -/
theorem frame_kernel : Cert.frame_Kernel (hKernel := Cert.Kernel.Gen.facts) (hPre_finite_inputs := Cert.Pre_finite_inputs.Gen.facts) :=
  fun m ρ _ => Cert.Kernel.Step.frame m ρ

/-- So does its idealization. -/
theorem frame_ideal : Cert.frame_KernelIdeal (hKernelIdeal := Cert.KernelIdeal.Gen.facts) (hPre_finite_inputs := Cert.Pre_finite_inputs.Gen.facts) :=
  fun m ρ _ => Cert.KernelIdeal.Step.frame m ρ

/-- And the reference: its run, the results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The idealized reference runs to the end with the specification's three arrays of its launch arguments as its
    results, and its arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v61) = Cert.Lstm.predArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
        ∧ r.2.mem ((c.tc : Thread Cert.ReferenceIdeal.nD Cert.ReferenceIdeal.τ).loc Cert.ReferenceIdeal.main_v44) = Cert.Lstm.hiddenArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_v42) = Cert.Lstm.cellArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) :=
  (θ_run Cert.ReferenceIdeal.defs _ _).mono (fun _ h c =>
    ⟨(h c).1.trans (Cert.ReferenceIdeal.RefValue.res_out0_eq m c),
      (h c).2.1.trans ((Cert.ReferenceIdeal.Read.val_main_v44_eq (F := Ideal) _ _ _ _ _ _ _ _ _ _ _ _).trans
        (Cert.ReferenceIdeal.RefValue.hidden_eq _ _ _ _ _ _ _ _ _ _ _ _)),
      (h c).2.2.1.trans ((Cert.ReferenceIdeal.Read.val_main_v42_eq (F := Ideal) _ _ _ _ _ _ _ _ _ _).trans
        (Cert.ReferenceIdeal.RefValue.cell_eq _ _ _ _ _ _ _ _ _ _)),
      (h c).2.2.2⟩) (Cert.ReferenceIdeal.Value.run (F := Ideal) m ρ)

set_option maxHeartbeats 4000000 in
/-- From launch memories that agree on the eighteen arguments, the idealized kernel and the idealized reference both
    end with the specification's three arrays of those arguments as their results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.StepValue.run m ρ, ?_⟩
  refine (θ_run Cert.ReferenceIdeal.defs _ _).mono (fun _ h c => ⟨?_, ?_, ?_, (h c).2.2.2⟩) (reference_run m' ρ')
  · refine (h c).1.trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  · refine (h c).2.1.trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]
  · refine (h c).2.2.1.trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.2.1, (hagree c).2.2.2.2.2.2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
